-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v1) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x64 : Shape := ⟨2, ![4096, 64]⟩
abbrev S4096x4096 : Shape := ⟨2, ![4096, 4096]⟩
abbrev S_ : Shape := ⟨0, ![]⟩

class Facts : Prop where
  bcast_S_S4096x64 : S_.BroadcastsInDim S4096x64 (![] : Fin 0 → Fin S4096x64.rank)
  reducesTo_S4096x64_S_d0_1 : S4096x64.ReducesTo [0, 1] S_
  h_S_ : 0 < S_.numel
  bcast_S_S4096x4096 : S_.BroadcastsInDim S4096x4096 (![] : Fin 0 → Fin S4096x4096.rank)
  reducesTo_S4096x4096_S_d0_1 : S4096x4096.ReducesTo [0, 1] S_

variable [Facts]

def fn {F : FTy → Type} [FloatOps F] (main_arg0 : FVec F S4096x64 .f32) (main_arg1 : FVec F S4096x4096 .f32) : IVec S_ 1 :=
  let main_v0 : FVec F S4096x64 .f32 := Host.absf main_arg0
  let main_cst : FVec F S_ .f32 := constant S_ .f32 0x7F800000#32
  let main_v1 : FVec F S4096x64 .f32 := broadcastInDim S4096x64 ![] bcast_S_S4096x64 main_cst
  let main_v2 : IVec S4096x64 1 := cmpf .olt main_v0 main_v1
  let main_c : IVec S_ 1 := constantI S_ 1 1#1
  let main_v3 : IVec S_ 1 := (fun x v => Host.reduce IntOp.andi x v reducesTo_S4096x64_S_d0_1 h_S_) main_v2 main_c
  let main_v4 : FVec F S4096x4096 .f32 := Host.absf main_arg1
  let main_cst_0 : FVec F S_ .f32 := constant S_ .f32 0x7F800000#32
  let main_v5 : FVec F S4096x4096 .f32 := broadcastInDim S4096x4096 ![] bcast_S_S4096x4096 main_cst_0
  let main_v6 : IVec S4096x4096 1 := cmpf .olt main_v4 main_v5
  let main_c_1 : IVec S_ 1 := constantI S_ 1 1#1
  let main_v7 : IVec S_ 1 := (fun x v => Host.reduce IntOp.andi x v reducesTo_S4096x4096_S_d0_1 h_S_) main_v6 main_c_1
  let main_v8 : IVec S_ 1 := andi main_v3 main_v7
  main_v8
-- ==== Kernel.lean ====
abbrev S4096x64 : Shape := ⟨2, ![4096, 64]⟩
abbrev S4096x4096 : Shape := ⟨2, ![4096, 4096]⟩
abbrev S128x64 : Shape := ⟨2, ![128, 64]⟩
abbrev S128x4096 : Shape := ⟨2, ![128, 4096]⟩

abbrev nBuf : Space → Nat
  | .hbm => 3
  | .vmem => 17
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x64, .f32⟩
  | .local _ .vmem, ⟨0, _⟩ => ⟨S128x64, .f32⟩
  | .local _ .vmem, ⟨1, _⟩ => ⟨S128x64, .f32⟩
  | .local _ .vmem, ⟨2, _⟩ => ⟨S128x64, .f32⟩
  | .local _ .vmem, ⟨3, _⟩ => ⟨S128x64, .f32⟩
  | .local _ .vmem, ⟨4, _⟩ => ⟨S128x64, .f32⟩
  | .local _ .vmem, ⟨5, _⟩ => ⟨S128x64, .f32⟩
  | .local _ .vmem, ⟨6, _⟩ => ⟨S128x64, .f32⟩
  | .local _ .vmem, ⟨7, _⟩ => ⟨S128x64, .f32⟩
  | .local _ .vmem, ⟨8, _⟩ => ⟨S128x4096, .f32⟩
  | .local _ .vmem, ⟨9, _⟩ => ⟨S128x4096, .f32⟩
  | .local _ .vmem, ⟨10, _⟩ => ⟨S128x4096, .f32⟩
  | .local _ .vmem, ⟨11, _⟩ => ⟨S128x4096, .f32⟩
  | .local _ .vmem, ⟨12, _⟩ => ⟨S128x4096, .f32⟩
  | .local _ .vmem, ⟨13, _⟩ => ⟨S128x4096, .f32⟩
  | .local _ .vmem, ⟨14, _⟩ => ⟨S128x4096, .f32⟩
  | .local _ .vmem, ⟨15, _⟩ => ⟨S128x4096, .f32⟩
  | .local _ .vmem, ⟨16, _⟩ => ⟨S4096x64, .f32⟩
  | _, _ => ⟨S4096x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16

abbrev nD : Nat := 1
abbrev τ : Topo := Topo.v7x

variable {F : FTy → Type} [FloatOps F]

abbrev grid0 : Pipeline.Grid := ⟨1, ![8], ![false]⟩

def k0_cond1 (i : grid0.Coords) : BitVec 1 :=
  let arg0 : BitVec 32 := BitVec.ofNat 32 (i 0).val
  let c0_i32 : BitVec 32 := 0#32
  let v15 : BitVec 1 := Scalar.cmpi .eq arg0 c0_i32
  let v16 : BitVec 32 := Scalar.extui v15
  let c0_i32_18 : BitVec 32 := 0#32
  let v17 : BitVec 1 := Scalar.cmpi .ne v16 c0_i32_18
  v17

def k0_cond2 (i : grid0.Coords) : BitVec 1 :=
  let arg0 : BitVec 32 := BitVec.ofNat 32 (i 0).val
  let c0_i32_19 : BitVec 32 := 0#32
  let v18 : BitVec 1 := Scalar.cmpi .ne arg0 c0_i32_19
  let v19 : BitVec 32 := Scalar.extui v18
  let c0_i32_20 : BitVec 32 := 0#32
  let v20 : BitVec 1 := Scalar.cmpi .ne v19 c0_i32_20
  v20

def cc0_transform_0 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_1 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c8_i32 : BitVec 32 := 8#32
  let v0 : BitVec 32 := Scalar.addi c8_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c16_i32 : BitVec 32 := 16#32
  let v0 : BitVec 32 := Scalar.addi c16_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c24_i32 : BitVec 32 := 24#32
  let v0 : BitVec 32 := Scalar.addi c24_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S128x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S128x64 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S128x64 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S128x4096 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S128x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S128x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 1 → Memref sig .tc .vmem S4096x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

class Facts₀ : Prop where
  inb_S128x4096_S128x4096_0_0 : ∀ a, (![0, 0] : Fin 2 → Nat) a + S128x4096.size a ≤ S128x4096.size a
  h_S128x4096 : 0 < S128x4096.numel
  inb_S128x64_S128x64_0_0 : ∀ a, (![0, 0] : Fin 2 → Nat) a + S128x64.size a ≤ S128x64.size a
  h_S128x64 : 0 < S128x64.numel
  inb_S4096x64_S4096x64_0_0 : ∀ a, (![0, 0] : Fin 2 → Nat) a + S4096x64.size a ≤ S4096x64.size a
  h_S4096x64 : 0 < S4096x64.numel
  shapeCasts_S4096x64_S4096x64 : S4096x64.ShapeCasts S4096x64
  dot_S128x4096_S128x64_S4096x64_0_0_1_1_n_n_wf : DotDims.WF S128x4096 S128x64 S4096x64 [0] [0] [1] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64.size a ≤ S4096x64.size a
  hwx0_0 : ∀ i : grid0.Coords, EltTy.bits .f32 = 32 ∨ (Rect.block (s := S4096x64) S128x64.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S128x64.size a ≤ S4096x64.size a
  hwx0_1 : ∀ i : grid0.Coords, EltTy.bits .f32 = 32 ∨ (Rect.block (s := S4096x64) S128x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S128x64.size a ≤ S4096x64.size a
  hwx0_2 : ∀ i : grid0.Coords, EltTy.bits .f32 = 32 ∨ (Rect.block (s := S4096x64) S128x64.size (cc0_transform_2 i) (hinb0_2 i)).WholeWords (EltTy.packing .f32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S128x64.size a ≤ S4096x64.size a
  hwx0_3 : ∀ i : grid0.Coords, EltTy.bits .f32 = 32 ∨ (Rect.block (s := S4096x64) S128x64.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S128x4096.size a ≤ S4096x4096.size a
  hwx0_4 : ∀ i : grid0.Coords, EltTy.bits .f32 = 32 ∨ (Rect.block (s := S4096x4096) S128x4096.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S128x4096.size a ≤ S4096x4096.size a
  hwx0_5 : ∀ i : grid0.Coords, EltTy.bits .f32 = 32 ∨ (Rect.block (s := S4096x4096) S128x4096.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S128x4096.size a ≤ S4096x4096.size a
  hwx0_6 : ∀ i : grid0.Coords, EltTy.bits .f32 = 32 ∨ (Rect.block (s := S4096x4096) S128x4096.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S128x4096.size a ≤ S4096x4096.size a
  hwx0_7 : ∀ i : grid0.Coords, EltTy.bits .f32 = 32 ∨ (Rect.block (s := S4096x4096) S128x4096.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S4096x64.size a ≤ S4096x64.size a
  hwx0_8 : ∀ i : grid0.Coords, EltTy.bits .f32 = 32 ∨ (Rect.block (s := S4096x64) S4096x64.size (cc0_transform_8 i) (hinb0_8 i)).WholeWords (EltTy.packing .f32)

variable [Facts₀]

def dot_S128x4096_S128x64_S4096x64_0_0_1_1_n_n : DotDims S128x4096 S128x64 S4096x64 where
  lhsContracting := [0]
  rhsContracting := [0]
  lhsNonContracting := [1]
  rhsNonContracting := [1]
  lhsBatch := []
  rhsBatch := []
  wf := dot_S128x4096_S128x64_S4096x64_0_0_1_1_n_n_wf

abbrev win0_0 : Pipeline.Window sig grid0 :=
  Pipeline.Window.ofSpec (Memref.whole main_arg0) S128x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S128x64.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S128x64.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg0) S128x64.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_arg1) S128x4096.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_arg1) S128x4096.size cc0_transform_5 reads0_5 false false 2 stage0_5 sem0_5
    hrank0 hreads0_5 hinb0_5 nbuf0_5 (Memref.isWhole_whole _) hwx0_5 hstage0_5

abbrev win0_6 : Pipeline.Window sig grid0 :=
  Pipeline.Window.ofSpec (Memref.whole main_arg1) S128x4096.size cc0_transform_6 reads0_6 false false 2 stage0_6 sem0_6
    hrank0 hreads0_6 hinb0_6 nbuf0_6 (Memref.isWhole_whole _) hwx0_6 hstage0_6

abbrev win0_7 : Pipeline.Window sig grid0 :=
  Pipeline.Window.ofSpec (Memref.whole main_arg1) S128x4096.size cc0_transform_7 reads0_7 false false 2 stage0_7 sem0_7
    hrank0 hreads0_7 hinb0_7 nbuf0_7 (Memref.isWhole_whole _) hwx0_7 hstage0_7

abbrev win0_8 : Pipeline.Window sig grid0 :=
  Pipeline.Window.ofSpec (Memref.whole main_v0) S4096x64.size cc0_transform_8 reads0_8 true true 1 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

abbrev idle0 : Fin 9 → grid0.Coords → Bool := fun | 0 => fun _ => false | 1 => fun _ => false | 2 => fun _ => false | 3 => fun _ => false | 4 => fun _ => false | 5 => fun _ => false | 6 => fun _ => false | 7 => fun _ => false | 8 => fun i => !(k0_cond1 i == 1#1) && !(k0_cond2 i == 1#1) | ⟨_ + 9, h⟩ => absurd h (Nat.not_lt.2 (Nat.le_add_left _ _))

class Facts : Prop extends Facts₀ where

variable [Facts]
-- ==== ReferenceIdeal.lean ====
abbrev S4096x64 : Shape := ⟨2, ![4096, 64]⟩
abbrev S4096x4096 : Shape := ⟨2, ![4096, 4096]⟩

abbrev nBuf : Space → Nat
  | .hbm => 4
  | .vmem => 0
  | .smem => 0
  | _ => 0

abbrev bufTy : (tb : Table) → Fin (tcTables nBuf tb) → BufTy
  | .hbm, ⟨0, _⟩ => ⟨S4096x64, .f32⟩
  | .hbm, ⟨1, _⟩ => ⟨S4096x4096, .f32⟩
  | .hbm, ⟨2, _⟩ => ⟨S4096x4096, .f32⟩
  | .hbm, ⟨3, _⟩ => ⟨S4096x64, .f32⟩
  | _, _ => ⟨S4096x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]

class Facts₀ : Prop where
  transposes_S4096x4096_S4096x4096_1_0 : S4096x4096.Transposes [1, 0] S4096x4096
  dot_S4096x4096_S4096x64_S4096x64_1_0_0_1_n_n_wf : DotDims.WF S4096x4096 S4096x64 S4096x64 [1] [0] [0] [1] [] []

variable [Facts₀]

def dot_S4096x4096_S4096x64_S4096x64_1_0_0_1_n_n : DotDims S4096x4096 S4096x64 S4096x64 where
  lhsContracting := [1]
  rhsContracting := [0]
  lhsNonContracting := [0]
  rhsNonContracting := [1]
  lhsBatch := []
  rhsBatch := []
  wf := dot_S4096x4096_S4096x64_S4096x64_1_0_0_1_n_n_wf

class Facts : Prop extends Facts₀ where

variable [Facts]
-- ==== Proof.K.Runs.lean ====
/-
  What the two runs of the matmul body share: the arrays as the region finds them, a window's block at a grid
  point, the two branch conditions decided over the eight grid points (the first holds at point 0 only, the second
  at every later point, so the output window is never idle), and the staging memrefs the body is called with.
-/
import proofs.«175850_g82377472737543_cont_9to1c4b_323_5_alg».proof.Proof.Gen.Kernel.Launch
import proofs.«175850_g82377472737543_cont_9to1c4b_323_5_alg».proof.Proof.Gen.Kernel.Skeleton
import proofs.«175850_g82377472737543_cont_9to1c4b_323_5_alg».proof.Proof.Gen.Kernel.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched (@main is the region alone). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first branch (store the four products' sum) is taken at point 0 only; -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- the second (add it to what the buffer holds) at every later point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
/-- So one of the two stores runs at every point: the output window is idle nowhere. -/
theorem hlive8 : ∀ i : grid0.Coords, cfg0.idle 8 i = false :=
  (by decide +kernel : ∀ i : grid0.Coords, idle0 8 i = false)

/-- One staging buffer of the output window, through which its contents are stated. -/
abbrev VO : View sig .tc .vmem S4096x64 .f32 := (Memref.whole cc0_stg8_0 : Memref sig .tc .vmem S4096x64 .f32).view
abbrev ms0 (t : Fin cfg0.N) : Memref sig .tc .vmem S128x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x4096 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4096x64 .f32 := win0_8.stage (cfg0.slots t 8)
abbrev hs8 (t : Fin cfg0.N) : (ms8 t).IsWhole := hstage0_8 ((cfg0.slots t 8).cast nbuf0_8)

end Cert.Kernel.Fr

end
-- ==== Proof.K.RunA.lean ====
/-
  The matmul body run at the first grid point (the first branch taken, the second not): it stores the sum of the four block products into the output's staging buffer, whatever that buffer held.
  The list of pieces the stores leave is found by running the body; the inputs' buffers come back as they were.
-/
import proofs.«175850_g82377472737543_cont_9to1c4b_323_5_alg».proof.Proof.K.Runs

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref at the first point, with the proof that on whole
    staging memrefs — the inputs' at their contents, the output's at anything — the body runs to the
    continuation holding the inputs' as they were and the output's buffer with those pieces written. -/
noncomputable def kernelRunA (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : k0_cond1 i = 1#1) (hc2 : ¬k0_cond2 i = 1#1)
    (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  :
    { L : List (View.Piece (Elt F) S4096x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

end Cert.Kernel.Fr

end
-- ==== Proof.K.RunB.lean ====
/-
  The matmul body run at a later grid point (the first branch not taken, the second taken): it stores what the output's staging buffer held plus the sum of the four block products.
  The list of pieces the stores leave is found by running the body; the inputs' buffers come back as they were.
-/
import proofs.«175850_g82377472737543_cont_9to1c4b_323_5_alg».proof.Proof.K.RunA

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref at a later point, with the proof that on whole
    staging memrefs — the inputs' at their contents, the output's at its running contents — the body runs to the
    continuation holding the inputs' as they were and the output's buffer with those pieces written. -/
noncomputable def kernelRunB (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : ¬k0_cond1 i = 1#1) (hc2 : k0_cond2 i = 1#1)
    (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32) (xo : Vec F S4096x64 .f32) :
    { L : List (View.Piece (Elt F) S4096x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xo
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

end Cert.Kernel.Fr

end
-- ==== Proof.K.Frame.lean ====
/-
  The frame of the blocked matmul kernel: eight input windows (four over each argument array, so each array's
  share is dealt in quarters) and one output window that is reset at the first grid point, accumulated at the
  seven later ones and written back after the last. What the output's staging buffer holds after each point is
  defined by recursion on the point; the proof data, the body obligation and the launch follow.
-/
import proofs.«175850_g82377472737543_cont_9to1c4b_323_5_alg».proof.Proof.K.RunB
import Idealize.ShloMosaic.Lib.Pipeline.Launch

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces cover the output's block (one store of the whole block). -/
theorem coverA (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : k0_cond1 i = 1#1) (hc2 : ¬k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  (y : S4096x64.Idx) :
    ∃ pc ∈ (kernelRunA c i arg1 harg1 arg2 harg2 arg3 harg3 arg4 harg4 arg5 harg5 arg6 harg6 arg7 harg7 arg8 harg8 arg9 harg9 hc1 hc2 x1 x2 x3 x4 x5 x6 x7 x8).1, y ∈ pc.1.set :=
  View.cover_of_tiledL (kernelRunA c i arg1 harg1 arg2 harg2 arg3 harg3 arg4 harg4 arg5 harg5 arg6 harg6 arg7 harg7 arg8 harg8 arg9 harg9 hc1 hc2 x1 x2 x3 x4 x5 x6 x7 x8).1 S4096x64.size (by sl_kernel_rfl) y

/-- What the first point leaves in the output's staging buffer: its pieces read back. -/
def outA (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : k0_cond1 i = 1#1) (hc2 : ¬k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  : Vec F S4096x64 .f32 :=
  VO.read (Elt F) (VO.writes (Elt F) VO.junk (kernelRunA c i arg1 harg1 arg2 harg2 arg3 harg3 arg4 harg4 arg5 harg5 arg6 harg6 arg7 harg7 arg8 harg8 arg9 harg9 hc1 hc2 x1 x2 x3 x4 x5 x6 x7 x8).1)

/-- A later point's pieces cover the output's block too. -/
theorem coverB (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : ¬k0_cond1 i = 1#1) (hc2 : k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  (xo : Vec F S4096x64 .f32) (y : S4096x64.Idx) :
    ∃ pc ∈ (kernelRunB c i arg1 harg1 arg2 harg2 arg3 harg3 arg4 harg4 arg5 harg5 arg6 harg6 arg7 harg7 arg8 harg8 arg9 harg9 hc1 hc2 x1 x2 x3 x4 x5 x6 x7 x8 xo).1, y ∈ pc.1.set :=
  View.cover_of_tiledL (kernelRunB c i arg1 harg1 arg2 harg2 arg3 harg3 arg4 harg4 arg5 harg5 arg6 harg6 arg7 harg7 arg8 harg8 arg9 harg9 hc1 hc2 x1 x2 x3 x4 x5 x6 x7 x8 xo).1 S4096x64.size (by sl_kernel_rfl) y

/-- What a later point leaves there, from what the buffer held (`xo`). -/
def outB (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : ¬k0_cond1 i = 1#1) (hc2 : k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  (xo : Vec F S4096x64 .f32) : Vec F S4096x64 .f32 :=
  VO.read (Elt F) (VO.writes (Elt F) VO.junk (kernelRunB c i arg1 harg1 arg2 harg2 arg3 harg3 arg4 harg4 arg5 harg5 arg6 harg6 arg7 harg7 arg8 harg8 arg9 harg9 hc1 hc2 x1 x2 x3 x4 x5 x6 x7 x8 xo).1)

/-! ## The accumulation -/

/-- What the output's staging buffer holds after the body at point `n`: the first point's store at `n = 0`, and at
    every later point that point's store over what the point before left (the buffer is not written back between). -/
def outsAt (c : Dev nD) : (n : ℕ) → n < cfg0.N → Vec F S4096x64 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩)
      ((hcond1 ⟨0, hn⟩).mpr rfl) (fun h => (hcond2 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn => outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩)
      (fun h => Nat.succ_ne_zero n ((hcond1 ⟨n + 1, hn⟩).mp h)) ((hcond2 ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      (outsAt c n (Nat.lt_of_succ_lt hn))

theorem outsAt_first (c : Dev nD) (t : Fin cfg0.N) (h0 : t.val = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
      ((hcond1 t).mpr h0) (fun h => (hcond2 t).mp h h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact absurd h0 (Nat.succ_ne_zero n)

theorem outsAt_later (c : Dev nD) (t : Fin cfg0.N) (h0 : t.val ≠ 0) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
      (fun h => h0 ((hcond1 t).mp h)) ((hcond2 t).mpr h0) (iblk m c 0 t) (iblk m c 1 t) (iblk m c 2 t) (iblk m c 3 t) (iblk m c 4 t) (iblk m c 5 t) (iblk m c 6 t) (iblk m c 7 t)
      (outsAt m c (t.val - 1) (Nat.lt_of_le_of_lt (Nat.sub_le _ _) t.isLt)) := by
  obtain ⟨n, hn⟩ := t
  cases n with
  | zero => exact absurd rfl h0
  | succ n => exact rfl

/-! ## The proof data -/

/-- The proof data on core `c`: the arrays as the region finds them; after the body at point `t` each input's buffer
    at its block and the output's at `outsAt`; nothing carried beside the staging buffers; each argument array's share
    dealt in quarters among the four windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare.left.left
    | ⟨5, _⟩ => fullShare.left.right
    | ⟨6, _⟩ => fullShare.right.left
    | ⟨7, _⟩ => fullShare.right.right
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt) := by dsimp only [dats]

/-- Input window 0 is fetched at every point: its buffer holds its block. -/
theorem before0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
/-- Input window 1 is fetched at every point: its buffer holds its block. -/
theorem before1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
/-- Input window 2 is fetched at every point: its buffer holds its block. -/
theorem before2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
/-- Input window 3 is fetched at every point: its buffer holds its block. -/
theorem before3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)
/-- Input window 4 is fetched at every point: its buffer holds its block. -/
theorem before4 (c : Dev nD) (t : Fin cfg0.N) (d) : (dats m 0 c).before 4 t d = iblk m c 4 t :=
  ((dats m 0 c).before_fetched 4 t (fetch0_4 t) d).trans (by unfold Dat.fetched Dat.blockOf iblk; rw [A_eq]; try rfl)
/-- Input window 5 is fetched at every point: its buffer holds its block. -/
theorem before5 (c : Dev nD) (t : Fin cfg0.N) (d) : (dats m 0 c).before 5 t d = iblk m c 5 t :=
  ((dats m 0 c).before_fetched 5 t (fetch0_5 t) d).trans (by unfold Dat.fetched Dat.blockOf iblk; rw [A_eq]; try rfl)
/-- Input window 6 is fetched at every point: its buffer holds its block. -/
theorem before6 (c : Dev nD) (t : Fin cfg0.N) (d) : (dats m 0 c).before 6 t d = iblk m c 6 t :=
  ((dats m 0 c).before_fetched 6 t (fetch0_6 t) d).trans (by unfold Dat.fetched Dat.blockOf iblk; rw [A_eq]; try rfl)
/-- Input window 7 is fetched at every point: its buffer holds its block. -/
theorem before7 (c : Dev nD) (t : Fin cfg0.N) (d) : (dats m 0 c).before 7 t d = iblk m c 7 t :=
  ((dats m 0 c).before_fetched 7 t (fetch0_7 t) d).trans (by unfold Dat.fetched Dat.blockOf iblk; rw [A_eq]; try rfl)

/-- At a later point the output's buffer holds what the body left at the point before: it is written back only
    after the last point, and the window is live and uncut. -/
theorem before8_later (c : Dev nD) (t : Fin cfg0.N) (h0 : t.val ≠ 0) (d) :
    (dats m 0 c).before 8 t d = (outsAt m c (t.val - 1) (Nat.lt_of_le_of_lt (Nat.sub_le _ _) t.isLt)) := by
  have hN : t.val < 8 := lt_of_lt_of_eq t.isLt (show cfg0.N = 8 from N_0)
  rw [Dat.before_out_kept _ 8 rfl t h0 (Bool.eq_false_iff.mpr fun h => by have := (flush0_8 _).mp h; dsimp only at this; omega)
    hlive8 (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point: the inputs' buffers hold their blocks; the point is the first or a later one; at a later
    one the output's buffer holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  by_cases h0 : t.val = 0
  · rw [outsAt_first m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunA c (grid0.coords t) _ _ _ _ _ _ _ _ _ _ _ _ _ _ _ _ _ _ ((hcond1 t).mpr h0) (fun h => (hcond2 t).mp h h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA c _ _ _ _ _ _ _ _ _ _ _ _ _ _ _ _ _ _ _ _ _ _ _ _ _ _ _ _ _)
  · rw [outsAt_later m c t h0]
    simp only [before8_later m c t h0]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunB c (grid0.coords t) _ _ _ _ _ _ _ _ _ _ _ _ _ _ _ _ _ _ (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB c _ _ _ _ _ _ _ _ _ _ _ _ _ _ _ _ _ _ _ _ _ _ _ _ _ _ _ _ _ _)

end Cert.Kernel.Fr

end
-- ==== Proof.K.Run.lean ====
/-
  The launch of the blocked matmul kernel. Each argument array is read through four input windows, so the buffer
  behind it, held whole at the region's entry, is dealt to them in quarter shares; the result array is the output
  window's outright. From the body obligation the region runs to the end, and every window's array ends at what
  the proof data compute: an argument array unchanged, the result array with its one block written back.
-/
import proofs.«175850_g82377472737543_cont_9to1c4b_323_5_alg».proof.Proof.K.Frame

set_option maxRecDepth 16384

noncomputable section

namespace Cert.Kernel.Fr

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point (the output window is idle nowhere). -/
theorem body_obligation (c : Dev nD) : BodyObligation (dats (F := F) m 0 c) (defs₀ (F := F)) Variants.none () Set.univ := fun t => by
  rw [bigSep_W0, bigSep_W0]
  have h8 : idle0 8 (grid0.coords t) = false := hlive8 _
  simp only [h8]
  exact sound_body m c t

/-- The shares the windows hold their arrays at: a quarter each for the inputs, the whole for the output. -/
theorem share0 (c : Dev nD) : (dats m 0 c).share 0 = fullShare.left.left := rfl
theorem share1 (c : Dev nD) : (dats m 0 c).share 1 = fullShare.left.right := rfl
theorem share2 (c : Dev nD) : (dats m 0 c).share 2 = fullShare.right.left := rfl
theorem share3 (c : Dev nD) : (dats m 0 c).share 3 = fullShare.right.right := rfl
theorem share4 (c : Dev nD) : (dats m 0 c).share 4 = fullShare.left.left := rfl
theorem share5 (c : Dev nD) : (dats m 0 c).share 5 = fullShare.left.right := rfl
theorem share6 (c : Dev nD) : (dats m 0 c).share 6 = fullShare.right.left := rfl
theorem share7 (c : Dev nD) : (dats m 0 c).share 7 = fullShare.right.right := rfl
theorem share8 (c : Dev nD) : (dats m 0 c).share 8 = fullShare := rfl

/-- The three buffers behind the windows' arrays, whole at the entry contents, make the pipeline's arrays at entry:
    each argument array's full share split in two, and each half in two again. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (dats m 0 c).arrays ((dats m 0 c).arrAt · 0)
      = bigSep Finset.univ fun w : Fin 9 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0, share0, share1, share2, share3, share4, share5, share6, share7, share8]
  have eb : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0)) := by
    unfold Pipeline.arrBufs
    rw [bigSep_eq_bigSepL_of_eq [(main_arg0 : Ref sig .tc), main_arg1, main_v0] (by decide) (by decide)]
    rfl
  rw [eb]
  iintro ⟨Hx, Hw, Ho⟩
  ihave Hx := (pointsTo_share (PosShare.mem_left_op_right fullShare)).1 $$ Hx
  icases Hx with ⟨Hxl, Hxr⟩
  ihave Hxl := (pointsTo_share (PosShare.mem_left_op_right fullShare.left)).1 $$ Hxl
  icases Hxl with ⟨Hx0, Hx1⟩
  ihave Hxr := (pointsTo_share (PosShare.mem_left_op_right fullShare.right)).1 $$ Hxr
  icases Hxr with ⟨Hx2, Hx3⟩
  ihave Hw := (pointsTo_share (PosShare.mem_left_op_right fullShare)).1 $$ Hw
  icases Hw with ⟨Hwl, Hwr⟩
  ihave Hwl := (pointsTo_share (PosShare.mem_left_op_right fullShare.left)).1 $$ Hwl
  icases Hwl with ⟨Hw0, Hw1⟩
  ihave Hwr := (pointsTo_share (PosShare.mem_left_op_right fullShare.right)).1 $$ Hwr
  icases Hwr with ⟨Hw2, Hw3⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hw2]; · iexact Hw2
  isplitl [Hw3]; · iexact Hw3
  iexact Ho

/-- @main is the region alone. -/
theorem hmain : Pipeline.HMain (Ix := Unit) (Name := ℕ) (U := UR sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- From any memory with zero counters, every weakly fair execution of @main terminates without a fault, and every
    window's array then holds what the proof data compute after the last write-back. -/
theorem run_main : θ_run defs (onTc (τ := τ) (main (F := F))) (s₀ m ρ)
    (fun r => ∀ (c : Dev nD) (w : Fin cfg0.W), r.2.mem ((spec0 w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m) (hsplit := arrays_of_bufs m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- info: 'Cert.Kernel.Fr.run_main' depends on axioms: [propext, Classical.choice, Quot.sound] -/
#guard_msgs in #print axioms run_main

/-- THE FRAME: the run terminates, nothing faults, and both argument arrays end as they began (an input window's
    array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 4).trans (((dats m 0 c).arrAt_in 4 rfl _).trans (A_eq m c 4))⟩) (run_main m ρ)

end Cert.Kernel.Fr

end
-- ==== Proof.KI.Runs.lean ====
/-
  What the two runs of the matmul body share: the arrays as the region finds them, a window's block at a grid
  point, the two branch conditions decided over the eight grid points (the first holds at point 0 only, the second
  at every later point, so the output window is never idle), and the staging memrefs the body is called with.
-/
import proofs.«175850_g82377472737543_cont_9to1c4b_323_5_alg».proof.Proof.Gen.KernelIdeal.Launch
import proofs.«175850_g82377472737543_cont_9to1c4b_323_5_alg».proof.Proof.Gen.KernelIdeal.Skeleton
import proofs.«175850_g82377472737543_cont_9to1c4b_323_5_alg».proof.Proof.Gen.KernelIdeal.Points
import Idealize.ShloMosaic.Lib.Pipeline.FrameBody
import Idealize.ShloMosaic.Lib.Pipeline.Frame
import Idealize.ShloMosaic.Lib.Ring
import Idealize.ShloMosaic.Lib.Tactic

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- Core `c`'s TensorCore buffers when the region is entered: as launched (@main is the region alone). -/
abbrev V (c : Dev nD) (b : Ref sig .tc) : Buf (Elt F) ((c : Thread nD τ).loc b) := m ((c : Thread nD τ).loc b)

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- The first branch (store the four products' sum) is taken at point 0 only; -/
theorem hcond1 : ∀ t : Fin cfg0.N, k0_cond1 (grid0.coords t) = 1#1 ↔ t.val = 0 :=
  (by decide +kernel : ∀ t : Fin grid0.N, k0_cond1 (grid0.coords t) = 1#1 ↔ t.val = 0)
/-- the second (add it to what the buffer holds) at every later point. -/
theorem hcond2 : ∀ t : Fin cfg0.N, k0_cond2 (grid0.coords t) = 1#1 ↔ t.val ≠ 0 :=
  (by decide +kernel : ∀ t : Fin grid0.N, k0_cond2 (grid0.coords t) = 1#1 ↔ t.val ≠ 0)
/-- So one of the two stores runs at every point: the output window is idle nowhere. -/
theorem hlive8 : ∀ i : grid0.Coords, cfg0.idle 8 i = false :=
  (by decide +kernel : ∀ i : grid0.Coords, idle0 8 i = false)

/-- One staging buffer of the output window, through which its contents are stated. -/
abbrev VO : View sig .tc .vmem S4096x64 .f32 := (Memref.whole cc0_stg8_0 : Memref sig .tc .vmem S4096x64 .f32).view
abbrev ms0 (t : Fin cfg0.N) : Memref sig .tc .vmem S128x64 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S128x64 .f32 := win0_1.stage (cfg0.slots t 1)
abbrev hs1 (t : Fin cfg0.N) : (ms1 t).IsWhole := hstage0_1 ((cfg0.slots t 1).cast nbuf0_1)
abbrev ms2 (t : Fin cfg0.N) : Memref sig .tc .vmem S128x64 .f32 := win0_2.stage (cfg0.slots t 2)
abbrev hs2 (t : Fin cfg0.N) : (ms2 t).IsWhole := hstage0_2 ((cfg0.slots t 2).cast nbuf0_2)
abbrev ms3 (t : Fin cfg0.N) : Memref sig .tc .vmem S128x64 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S128x4096 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S128x4096 .f32 := win0_5.stage (cfg0.slots t 5)
abbrev hs5 (t : Fin cfg0.N) : (ms5 t).IsWhole := hstage0_5 ((cfg0.slots t 5).cast nbuf0_5)
abbrev ms6 (t : Fin cfg0.N) : Memref sig .tc .vmem S128x4096 .f32 := win0_6.stage (cfg0.slots t 6)
abbrev hs6 (t : Fin cfg0.N) : (ms6 t).IsWhole := hstage0_6 ((cfg0.slots t 6).cast nbuf0_6)
abbrev ms7 (t : Fin cfg0.N) : Memref sig .tc .vmem S128x4096 .f32 := win0_7.stage (cfg0.slots t 7)
abbrev hs7 (t : Fin cfg0.N) : (ms7 t).IsWhole := hstage0_7 ((cfg0.slots t 7).cast nbuf0_7)
abbrev ms8 (t : Fin cfg0.N) : Memref sig .tc .vmem S4096x64 .f32 := win0_8.stage (cfg0.slots t 8)
abbrev hs8 (t : Fin cfg0.N) : (ms8 t).IsWhole := hstage0_8 ((cfg0.slots t 8).cast nbuf0_8)

end Cert.KernelIdeal.Fr

end
-- ==== Proof.KI.RunA.lean ====
/-
  The matmul body run at the first grid point (the first branch taken, the second not): it stores the sum of the four block products into the output's staging buffer, whatever that buffer held.
  The list of pieces the stores leave is found by running the body; the inputs' buffers come back as they were.
-/
import proofs.«175850_g82377472737543_cont_9to1c4b_323_5_alg».proof.Proof.KI.Runs

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref at the first point, with the proof that on whole
    staging memrefs — the inputs' at their contents, the output's at anything — the body runs to the
    continuation holding the inputs' as they were and the output's buffer with those pieces written. -/
noncomputable def kernelRunA (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : k0_cond1 i = 1#1) (hc2 : ¬k0_cond2 i = 1#1)
    (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  :
    { L : List (View.Piece (Elt F) S4096x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ d, owns (c : Thread nD τ) arg9 fullShare d)
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%d9, %f9, -, H9⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

end Cert.KernelIdeal.Fr

end
-- ==== Proof.KI.RunB.lean ====
/-
  The matmul body run at a later grid point (the first branch not taken, the second taken): it stores what the output's staging buffer held plus the sum of the four block products.
  The list of pieces the stores leave is found by running the body; the inputs' buffers come back as they were.
-/
import proofs.«175850_g82377472737543_cont_9to1c4b_323_5_alg».proof.Proof.KI.RunA

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The pieces the body's stores leave in the output's staging memref at a later point, with the proof that on whole
    staging memrefs — the inputs' at their contents, the output's at its running contents — the body runs to the
    continuation holding the inputs' as they were and the output's buffer with those pieces written. -/
noncomputable def kernelRunB (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : ¬k0_cond1 i = 1#1) (hc2 : k0_cond2 i = 1#1)
    (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32) (xo : Vec F S4096x64 .f32) :
    { L : List (View.Piece (Elt F) S4096x64 .f32) //
      ∀ (E : Set ℕ) (K : PUnit → sProp 𝕄),
        iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ owns (c : Thread nD τ) arg9 fullShare xo
            ∗ (iprop(owns (c : Thread nD τ) arg1 fullShare x1 ∗ owns (c : Thread nD τ) arg2 fullShare x2 ∗ owns (c : Thread nD τ) arg3 fullShare x3 ∗ owns (c : Thread nD τ) arg4 fullShare x4 ∗ owns (c : Thread nD τ) arg5 fullShare x5 ∗ owns (c : Thread nD τ) arg6 fullShare x6 ∗ owns (c : Thread nD τ) arg7 fullShare x7 ∗ owns (c : Thread nD τ) arg8 fullShare x8 ∗ (∃ f, arg9.view.loc (c : Thread nD τ) ↦[arg9.view.set]{fullShare} arg9.view.writes (Elt F) f L)) -∗ K ⟨⟩))
          ⊢ wp frame (wpE (defs₀ (F := F)) Variants.none c none) E (cc0__mm_kernel i arg1 harg1 arg2 harg2 arg3 harg3 arg4 harg4 arg5 harg5 arg6 harg6 arg7 harg7 arg8 harg8 arg9 harg9) K } := by
  refine ⟨?_, fun E K => ?run⟩
  case run =>
    simp only [cc0__mm_kernel_eq_skeleton]; unfold cc0__mm_kernel_skel
    unfold owns
    iintro ⟨⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩, Hk⟩
    obtain rfl := harg1.eq_unread hf1; obtain rfl := harg2.eq_unread hf2; obtain rfl := harg3.eq_unread hf3; obtain rfl := harg4.eq_unread hf4
    obtain rfl := harg5.eq_unread hf5; obtain rfl := harg6.eq_unread hf6; obtain rfl := harg7.eq_unread hf7; obtain rfl := harg8.eq_unread hf8
    obtain rfl := harg9.eq_unread hf9
    sl_exec (disch := first | exact hc1 | exact hc2)
    sl_step
    iapply Hk
    isplitl [H1]
    · iexists _; isplitr; · ipureintro; exact harg1.read_unread _
      iexact H1
    isplitl [H2]
    · iexists _; isplitr; · ipureintro; exact harg2.read_unread _
      iexact H2
    isplitl [H3]
    · iexists _; isplitr; · ipureintro; exact harg3.read_unread _
      iexact H3
    isplitl [H4]
    · iexists _; isplitr; · ipureintro; exact harg4.read_unread _
      iexact H4
    isplitl [H5]
    · iexists _; isplitr; · ipureintro; exact harg5.read_unread _
      iexact H5
    isplitl [H6]
    · iexists _; isplitr; · ipureintro; exact harg6.read_unread _
      iexact H6
    isplitl [H7]
    · iexists _; isplitr; · ipureintro; exact harg7.read_unread _
      iexact H7
    isplitl [H8]
    · iexists _; isplitr; · ipureintro; exact harg8.read_unread _
      iexact H8
    iexists _; iexact H9

end Cert.KernelIdeal.Fr

end
-- ==== Proof.KI.Frame.lean ====
/-
  The frame of the blocked matmul kernel: eight input windows (four over each argument array, so each array's
  share is dealt in quarters) and one output window that is reset at the first grid point, accumulated at the
  seven later ones and written back after the last. What the output's staging buffer holds after each point is
  defined by recursion on the point; the proof data, the body obligation and the launch follow.
-/
import proofs.«175850_g82377472737543_cont_9to1c4b_323_5_alg».proof.Proof.KI.RunB
import Idealize.ShloMosaic.Lib.Pipeline.Launch

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The first point's pieces cover the output's block (one store of the whole block). -/
theorem coverA (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : k0_cond1 i = 1#1) (hc2 : ¬k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  (y : S4096x64.Idx) :
    ∃ pc ∈ (kernelRunA c i arg1 harg1 arg2 harg2 arg3 harg3 arg4 harg4 arg5 harg5 arg6 harg6 arg7 harg7 arg8 harg8 arg9 harg9 hc1 hc2 x1 x2 x3 x4 x5 x6 x7 x8).1, y ∈ pc.1.set :=
  View.cover_of_tiledL (kernelRunA c i arg1 harg1 arg2 harg2 arg3 harg3 arg4 harg4 arg5 harg5 arg6 harg6 arg7 harg7 arg8 harg8 arg9 harg9 hc1 hc2 x1 x2 x3 x4 x5 x6 x7 x8).1 S4096x64.size (by sl_kernel_rfl) y

/-- What the first point leaves in the output's staging buffer: its pieces read back. -/
def outA (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : k0_cond1 i = 1#1) (hc2 : ¬k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  : Vec F S4096x64 .f32 :=
  VO.read (Elt F) (VO.writes (Elt F) VO.junk (kernelRunA c i arg1 harg1 arg2 harg2 arg3 harg3 arg4 harg4 arg5 harg5 arg6 harg6 arg7 harg7 arg8 harg8 arg9 harg9 hc1 hc2 x1 x2 x3 x4 x5 x6 x7 x8).1)

/-- A later point's pieces cover the output's block too. -/
theorem coverB (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : ¬k0_cond1 i = 1#1) (hc2 : k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  (xo : Vec F S4096x64 .f32) (y : S4096x64.Idx) :
    ∃ pc ∈ (kernelRunB c i arg1 harg1 arg2 harg2 arg3 harg3 arg4 harg4 arg5 harg5 arg6 harg6 arg7 harg7 arg8 harg8 arg9 harg9 hc1 hc2 x1 x2 x3 x4 x5 x6 x7 x8 xo).1, y ∈ pc.1.set :=
  View.cover_of_tiledL (kernelRunB c i arg1 harg1 arg2 harg2 arg3 harg3 arg4 harg4 arg5 harg5 arg6 harg6 arg7 harg7 arg8 harg8 arg9 harg9 hc1 hc2 x1 x2 x3 x4 x5 x6 x7 x8 xo).1 S4096x64.size (by sl_kernel_rfl) y

/-- What a later point leaves there, from what the buffer held (`xo`). -/
def outB (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : ¬k0_cond1 i = 1#1) (hc2 : k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  (xo : Vec F S4096x64 .f32) : Vec F S4096x64 .f32 :=
  VO.read (Elt F) (VO.writes (Elt F) VO.junk (kernelRunB c i arg1 harg1 arg2 harg2 arg3 harg3 arg4 harg4 arg5 harg5 arg6 harg6 arg7 harg7 arg8 harg8 arg9 harg9 hc1 hc2 x1 x2 x3 x4 x5 x6 x7 x8 xo).1)

/-! ## The accumulation -/

/-- What the output's staging buffer holds after the body at point `n`: the first point's store at `n = 0`, and at
    every later point that point's store over what the point before left (the buffer is not written back between). -/
def outsAt (c : Dev nD) : (n : ℕ) → n < cfg0.N → Vec F S4096x64 .f32
  | 0, hn => outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩)
      ((hcond1 ⟨0, hn⟩).mpr rfl) (fun h => (hcond2 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩)
  | n + 1, hn => outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩)
      (fun h => Nat.succ_ne_zero n ((hcond1 ⟨n + 1, hn⟩).mp h)) ((hcond2 ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      (outsAt c n (Nat.lt_of_succ_lt hn))

theorem outsAt_first (c : Dev nD) (t : Fin cfg0.N) (h0 : t.val = 0) :
    outsAt m c t.val t.isLt = outA c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
      ((hcond1 t).mpr h0) (fun h => (hcond2 t).mp h h0) (iblk m c 0 t) (iblk m c 1 t) (iblk m c 2 t) (iblk m c 3 t) (iblk m c 4 t) (iblk m c 5 t) (iblk m c 6 t) (iblk m c 7 t) := by
  obtain ⟨n, hn⟩ := t
  cases n with
  | zero => exact rfl
  | succ n => exact absurd h0 (Nat.succ_ne_zero n)

theorem outsAt_later (c : Dev nD) (t : Fin cfg0.N) (h0 : t.val ≠ 0) :
    outsAt m c t.val t.isLt = outB c (grid0.coords t) (ms0 t) (hs0 t) (ms1 t) (hs1 t) (ms2 t) (hs2 t) (ms3 t) (hs3 t) (ms4 t) (hs4 t) (ms5 t) (hs5 t) (ms6 t) (hs6 t) (ms7 t) (hs7 t) (ms8 t) (hs8 t)
      (fun h => h0 ((hcond1 t).mp h)) ((hcond2 t).mpr h0) (iblk m c 0 t) (iblk m c 1 t) (iblk m c 2 t) (iblk m c 3 t) (iblk m c 4 t) (iblk m c 5 t) (iblk m c 6 t) (iblk m c 7 t)
      (outsAt m c (t.val - 1) (Nat.lt_of_le_of_lt (Nat.sub_le _ _) t.isLt)) := by
  obtain ⟨n, hn⟩ := t
  cases n with
  | zero => exact absurd rfl h0
  | succ n => exact rfl

/-! ## The proof data -/

/-- The proof data on core `c`: the arrays as the region finds them; after the body at point `t` each input's buffer
    at its block and the output's at `outsAt`; nothing carried beside the staging buffers; each argument array's share
    dealt in quarters among the four windows that read it; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => (outsAt m c t.val t.isLt)
  Φ _ := Pipeline.scopedRest spec0 c
  q w := match w with
    | ⟨0, _⟩ => fullShare.left.left
    | ⟨1, _⟩ => fullShare.left.right
    | ⟨2, _⟩ => fullShare.right.left
    | ⟨3, _⟩ => fullShare.right.right
    | ⟨4, _⟩ => fullShare.left.left
    | ⟨5, _⟩ => fullShare.left.right
    | ⟨6, _⟩ => fullShare.right.left
    | ⟨7, _⟩ => fullShare.right.right
    | ⟨8, _⟩ => fullShare
  owed _ := 0

theorem A_eq (c : Dev nD) (w : Fin cfg0.W) : (dats m 0 c).A w = V m c (Pipeline.arrRef spec0 w) := by
  dsimp only [dats]

theorem after0 (c : Dev nD) (t : Fin cfg0.N) : (dats m 0 c).after 0 t = iblk m c 0 t := by dsimp only [dats]
theorem after1 (c : Dev nD) (t : Fin cfg0.N) : (dats m 0 c).after 1 t = iblk m c 1 t := by dsimp only [dats]
theorem after2 (c : Dev nD) (t : Fin cfg0.N) : (dats m 0 c).after 2 t = iblk m c 2 t := by dsimp only [dats]
theorem after3 (c : Dev nD) (t : Fin cfg0.N) : (dats m 0 c).after 3 t = iblk m c 3 t := by dsimp only [dats]
theorem after4 (c : Dev nD) (t : Fin cfg0.N) : (dats m 0 c).after 4 t = iblk m c 4 t := by dsimp only [dats]
theorem after5 (c : Dev nD) (t : Fin cfg0.N) : (dats m 0 c).after 5 t = iblk m c 5 t := by dsimp only [dats]
theorem after6 (c : Dev nD) (t : Fin cfg0.N) : (dats m 0 c).after 6 t = iblk m c 6 t := by dsimp only [dats]
theorem after7 (c : Dev nD) (t : Fin cfg0.N) : (dats m 0 c).after 7 t = iblk m c 7 t := by dsimp only [dats]
theorem after8 (c : Dev nD) (t : Fin cfg0.N) : (dats m 0 c).after 8 t = (outsAt m c t.val t.isLt) := by dsimp only [dats]

/-- Input window 0 is fetched at every point: its buffer holds its block. -/
theorem before0 (c : Dev nD) (t : Fin cfg0.N) (d) : (dats m 0 c).before 0 t d = iblk m c 0 t :=
  ((dats m 0 c).before_fetched 0 t (fetch0_0 t) d).trans (by unfold Dat.fetched Dat.blockOf iblk; rw [A_eq]; try rfl)
/-- Input window 1 is fetched at every point: its buffer holds its block. -/
theorem before1 (c : Dev nD) (t : Fin cfg0.N) (d) : (dats m 0 c).before 1 t d = iblk m c 1 t :=
  ((dats m 0 c).before_fetched 1 t (fetch0_1 t) d).trans (by unfold Dat.fetched Dat.blockOf iblk; rw [A_eq]; try rfl)
/-- Input window 2 is fetched at every point: its buffer holds its block. -/
theorem before2 (c : Dev nD) (t : Fin cfg0.N) (d) : (dats m 0 c).before 2 t d = iblk m c 2 t :=
  ((dats m 0 c).before_fetched 2 t (fetch0_2 t) d).trans (by unfold Dat.fetched Dat.blockOf iblk; rw [A_eq]; try rfl)
/-- Input window 3 is fetched at every point: its buffer holds its block. -/
theorem before3 (c : Dev nD) (t : Fin cfg0.N) (d) : (dats m 0 c).before 3 t d = iblk m c 3 t :=
  ((dats m 0 c).before_fetched 3 t (fetch0_3 t) d).trans (by unfold Dat.fetched Dat.blockOf iblk; rw [A_eq]; try rfl)
/-- Input window 4 is fetched at every point: its buffer holds its block. -/
theorem before4 (c : Dev nD) (t : Fin cfg0.N) (d) : (dats m 0 c).before 4 t d = iblk m c 4 t :=
  ((dats m 0 c).before_fetched 4 t (fetch0_4 t) d).trans (by unfold Dat.fetched Dat.blockOf iblk; rw [A_eq]; try rfl)
/-- Input window 5 is fetched at every point: its buffer holds its block. -/
theorem before5 (c : Dev nD) (t : Fin cfg0.N) (d) : (dats m 0 c).before 5 t d = iblk m c 5 t :=
  ((dats m 0 c).before_fetched 5 t (fetch0_5 t) d).trans (by unfold Dat.fetched Dat.blockOf iblk; rw [A_eq]; try rfl)
/-- Input window 6 is fetched at every point: its buffer holds its block. -/
theorem before6 (c : Dev nD) (t : Fin cfg0.N) (d) : (dats m 0 c).before 6 t d = iblk m c 6 t :=
  ((dats m 0 c).before_fetched 6 t (fetch0_6 t) d).trans (by unfold Dat.fetched Dat.blockOf iblk; rw [A_eq]; try rfl)
/-- Input window 7 is fetched at every point: its buffer holds its block. -/
theorem before7 (c : Dev nD) (t : Fin cfg0.N) (d) : (dats m 0 c).before 7 t d = iblk m c 7 t :=
  ((dats m 0 c).before_fetched 7 t (fetch0_7 t) d).trans (by unfold Dat.fetched Dat.blockOf iblk; rw [A_eq]; try rfl)

/-- At a later point the output's buffer holds what the body left at the point before: it is written back only
    after the last point, and the window is live and uncut. -/
theorem before8_later (c : Dev nD) (t : Fin cfg0.N) (h0 : t.val ≠ 0) (d) :
    (dats m 0 c).before 8 t d = (outsAt m c (t.val - 1) (Nat.lt_of_le_of_lt (Nat.sub_le _ _) t.isLt)) := by
  have hN : t.val < 8 := lt_of_lt_of_eq t.isLt (show cfg0.N = 8 from N_0)
  rw [Dat.before_out_kept _ 8 rfl t h0 (Bool.eq_false_iff.mpr fun h => by have := (flush0_8 _).mp h; dsimp only at this; omega)
    hlive8 (fun _ _ => rfl)]
  dsimp only [dats]

/-! ## The body obligation -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d))
    ∗ (∃ d, owns (c : Thread nD τ) (ms6 t) fullShare ((dats m 0 c).before 6 t d))
    ∗ (∃ d, owns (c : Thread nD τ) (ms7 t) fullShare ((dats m 0 c).before 7 t d))
    ∗ (∃ d, owns (c : Thread nD τ) (ms8 t) fullShare ((dats m 0 c).before 8 t d)))

def bodyPost (c : Dev nD) (t : Fin cfg0.N) : sProp 𝕄 :=
  iprop((dats m 0 c).Φ t.succ ∗ (dats m 0 c).owesAt () t.succ
    ∗ owns (c : Thread nD τ) (ms0 t) fullShare ((dats m 0 c).after 0 t)
    ∗ owns (c : Thread nD τ) (ms1 t) fullShare ((dats m 0 c).after 1 t)
    ∗ owns (c : Thread nD τ) (ms2 t) fullShare ((dats m 0 c).after 2 t)
    ∗ owns (c : Thread nD τ) (ms3 t) fullShare ((dats m 0 c).after 3 t)
    ∗ owns (c : Thread nD τ) (ms4 t) fullShare ((dats m 0 c).after 4 t)
    ∗ owns (c : Thread nD τ) (ms5 t) fullShare ((dats m 0 c).after 5 t)
    ∗ owns (c : Thread nD τ) (ms6 t) fullShare ((dats m 0 c).after 6 t)
    ∗ owns (c : Thread nD τ) (ms7 t) fullShare ((dats m 0 c).after 7 t)
    ∗ owns (c : Thread nD τ) (ms8 t) fullShare ((dats m 0 c).after 8 t))

set_option maxHeartbeats 1600000 in
/-- The body at any point: the inputs' buffers hold their blocks; the point is the first or a later one; at a later
    one the output's buffer holds what the point before left; so the matching run applies. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0, before1, before2, before3, before4, before5, before6, before7]
  rw [show (dats m 0 c).Φ t.succ = (dats m 0 c).Φ t.castSucc from rfl,
    show (dats m 0 c).owesAt () t.succ = (dats m 0 c).owesAt () t.castSucc from rfl,
    after0, after1, after2, after3, after4, after5, after6, after7, after8]
  by_cases h0 : t.val = 0
  · rw [outsAt_first m c t h0]
    unfold outA
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunA c (grid0.coords t) _ _ _ _ _ _ _ _ _ _ _ _ _ _ _ _ _ _ ((hcond1 t).mpr h0) (fun h => (hcond2 t).mp h h0) (iblk m c 0 t) (iblk m c 1 t) (iblk m c 2 t) (iblk m c 3 t) (iblk m c 4 t) (iblk m c 5 t) (iblk m c 6 t) (iblk m c 7 t)).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexists _; iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverA c _ _ _ _ _ _ _ _ _ _ _ _ _ _ _ _ _ _ _ _ _ _ _ _ _ _ _ _ _)
  · rw [outsAt_later m c t h0]
    simp only [before8_later m c t h0]
    unfold outB
    iintro ⟨HΦ, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩⟩
    iapply ((kernelRunB c (grid0.coords t) _ _ _ _ _ _ _ _ _ _ _ _ _ _ _ _ _ _ (fun h => h0 ((hcond1 t).mp h)) ((hcond2 t).mpr h0) (iblk m c 0 t) (iblk m c 1 t) (iblk m c 2 t) (iblk m c 3 t) (iblk m c 4 t) (iblk m c 5 t) (iblk m c 6 t) (iblk m c 7 t) _).2 Set.univ _)
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iintro ⟨H0, H1, H2, H3, H4, H5, H6, H7, ⟨%e8, H8⟩⟩
    isplitl [HΦ]; · iexact HΦ
    isplitl [Ho]; · iexact Ho
    isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    unfold owns; iexists _; isplitr
    swap; · iexact H8
    ipureintro; exact View.read_writes_of_cover _ _ _ _ _ (coverB c _ _ _ _ _ _ _ _ _ _ _ _ _ _ _ _ _ _ _ _ _ _ _ _ _ _ _ _ _ _)

end Cert.KernelIdeal.Fr

end
-- ==== Proof.KI.Run.lean ====
/-
  The launch of the blocked matmul kernel. Each argument array is read through four input windows, so the buffer
  behind it, held whole at the region's entry, is dealt to them in quarter shares; the result array is the output
  window's outright. From the body obligation the region runs to the end, and every window's array ends at what
  the proof data compute: an argument array unchanged, the result array with its one block written back.
-/
import proofs.«175850_g82377472737543_cont_9to1c4b_323_5_alg».proof.Proof.KI.Frame

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The library's body obligation, at every point (the output window is idle nowhere). -/
theorem body_obligation (c : Dev nD) : BodyObligation (dats (F := F) m 0 c) (defs₀ (F := F)) Variants.none () Set.univ := fun t => by
  rw [bigSep_W0, bigSep_W0]
  have h8 : idle0 8 (grid0.coords t) = false := hlive8 _
  simp only [h8]
  exact sound_body m c t

/-- The shares the windows hold their arrays at: a quarter each for the inputs, the whole for the output. -/
theorem share0 (c : Dev nD) : (dats m 0 c).share 0 = fullShare.left.left := rfl
theorem share1 (c : Dev nD) : (dats m 0 c).share 1 = fullShare.left.right := rfl
theorem share2 (c : Dev nD) : (dats m 0 c).share 2 = fullShare.right.left := rfl
theorem share3 (c : Dev nD) : (dats m 0 c).share 3 = fullShare.right.right := rfl
theorem share4 (c : Dev nD) : (dats m 0 c).share 4 = fullShare.left.left := rfl
theorem share5 (c : Dev nD) : (dats m 0 c).share 5 = fullShare.left.right := rfl
theorem share6 (c : Dev nD) : (dats m 0 c).share 6 = fullShare.right.left := rfl
theorem share7 (c : Dev nD) : (dats m 0 c).share 7 = fullShare.right.right := rfl
theorem share8 (c : Dev nD) : (dats m 0 c).share 8 = fullShare := rfl

/-- The three buffers behind the windows' arrays, whole at the entry contents, make the pipeline's arrays at entry:
    each argument array's full share split in two, and each half in two again. -/
theorem arrays_of_bufs (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  have e : (dats m 0 c).arrays ((dats m 0 c).arrAt · 0)
      = bigSep Finset.univ fun w : Fin 9 => (((c : Thread nD τ).loc (Pipeline.arrRef spec0 w)) ↦{(dats m 0 c).share w} V m c (Pipeline.arrRef spec0 w) : sProp 𝕄) := by
    unfold Dat.arrays
    exact bigSep_congr fun w _ => by rw [(arr_whole0 w).set_eq_univ]; rfl
  rw [e, bigSep_W0, share0, share1, share2, share3, share4, share5, share6, share7, share8]
  have eb : (Pipeline.arrBufs (Ix := Unit) (Name := ℕ) (U := UR sig nD τ) (Lvl := ℕ) spec0 c (V m c) : sProp 𝕄)
      = iprop((((c : Thread nD τ).loc main_arg0) ↦{fullShare} V m c main_arg0) ∗ (((c : Thread nD τ).loc main_arg1) ↦{fullShare} V m c main_arg1)
          ∗ (((c : Thread nD τ).loc main_v0) ↦{fullShare} V m c main_v0)) := by
    unfold Pipeline.arrBufs
    rw [bigSep_eq_bigSepL_of_eq [(main_arg0 : Ref sig .tc), main_arg1, main_v0] (by decide) (by decide)]
    rfl
  rw [eb]
  iintro ⟨Hx, Hw, Ho⟩
  ihave Hx := (pointsTo_share (PosShare.mem_left_op_right fullShare)).1 $$ Hx
  icases Hx with ⟨Hxl, Hxr⟩
  ihave Hxl := (pointsTo_share (PosShare.mem_left_op_right fullShare.left)).1 $$ Hxl
  icases Hxl with ⟨Hx0, Hx1⟩
  ihave Hxr := (pointsTo_share (PosShare.mem_left_op_right fullShare.right)).1 $$ Hxr
  icases Hxr with ⟨Hx2, Hx3⟩
  ihave Hw := (pointsTo_share (PosShare.mem_left_op_right fullShare)).1 $$ Hw
  icases Hw with ⟨Hwl, Hwr⟩
  ihave Hwl := (pointsTo_share (PosShare.mem_left_op_right fullShare.left)).1 $$ Hwl
  icases Hwl with ⟨Hw0, Hw1⟩
  ihave Hwr := (pointsTo_share (PosShare.mem_left_op_right fullShare.right)).1 $$ Hwr
  icases Hwr with ⟨Hw2, Hw3⟩
  isplitl [Hx0]; · iexact Hx0
  isplitl [Hx1]; · iexact Hx1
  isplitl [Hx2]; · iexact Hx2
  isplitl [Hx3]; · iexact Hx3
  isplitl [Hw0]; · iexact Hw0
  isplitl [Hw1]; · iexact Hw1
  isplitl [Hw2]; · iexact Hw2
  isplitl [Hw3]; · iexact Hw3
  iexact Ho

/-- @main is the region alone. -/
theorem hmain : Pipeline.HMain (Ix := Unit) (Name := ℕ) (U := UR sig nD τ) (Lvl := ℕ) cfgs 0 defs₀ Variants.none m (main (F := F)) (V m) :=
  Pipeline.hmain_region cfgs 0 defs₀ Variants.none m main fun c => (main_chain c).trans rfl

set_option backward.isDefEq.respectTransparency.types false in
/-- From any memory with zero counters, every weakly fair execution of @main terminates without a fault, and every
    window's array then holds what the proof data compute after the last write-back. -/
theorem run_main : θ_run defs (onTc (τ := τ) (main (F := F))) (s₀ m ρ)
    (fun r => ∀ (c : Dev nD) (w : Fin cfg0.W), r.2.mem ((spec0 w).arr.view.loc (c : Thread nD τ)) = (dats m 0 c).arrAt w cfg0.N) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0) (howed := fun _ _ => rfl)
    (u₀ := initOf (Pipeline.cells cfgs cellOf_inj) (Pipeline.launchToks cfgs cellOf_inj)) (hu₀ := BI.Entails.refl _)
    (V := V m) (hmain := hmain m) (hsplit := arrays_of_bufs m)
    (X := fun _ => iprop(emp)) (Y := fun _ => iprop(emp)) (Z := fun _ => iprop(emp))
    (hX := fun c => by rw [unscopedRest0_eq]; iintro -; isplitr <;> iempintro)
    (hin := fun c => by
      rw [show (dats m 0 c).Φ 0 = Pipeline.scopedRest spec0 c from rfl]
      iintro ⟨-, H⟩; iexact H)
    (hout := fun c => by
      rw [show (dats m 0 c).Φ (Fin.last cfg0.N) = Pipeline.scopedRest spec0 c from rfl]
      iintro H; isplitr; · iempintro
      iexact H)
    (QY := fun _ _ => True)
    (hY := fun c s' => by
      iintro ⟨-, -, HSI⟩; imodintro
      isplitr; · ipureintro; trivial
      iexact HSI)
    (hQ := fun _ h c w => (h c).1 w)

/-- info: 'Cert.KernelIdeal.Fr.run_main' depends on axioms: [propext, Classical.choice, Quot.sound] -/
#guard_msgs in #print axioms run_main

/-- THE FRAME: the run terminates, nothing faults, and both argument arrays end as they began (an input window's
    array is never written). -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun _ h c =>
    ⟨(h c 0).trans (((dats m 0 c).arrAt_in 0 rfl _).trans (A_eq m c 0)),
     (h c 4).trans (((dats m 0 c).arrAt_in 4 rfl _).trans (A_eq m c 4))⟩) (run_main m ρ)

end Cert.KernelIdeal.Fr

end
-- ==== Proof.KI.Pieces.lean ====
/-
  The two stores of the matmul body as pure terms: the first grid point leaves the sum of the four block products,
  a later one what the buffer held plus that sum.
-/
import proofs.«175850_g82377472737543_cont_9to1c4b_323_5_alg».proof.Proof.KI.Frame
import Idealize.ShloMosaic.Lib.Pipeline.Value

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The stores' and loads' rectangle starts at the zero offsets. -/
theorem hz : (![0, 0] : Fin 2 → Nat) = fun _ => 0 := by
  funext a; fin_cases a <;> rfl

/-- What the first point leaves in the output's buffer is the sum of the four block products of its input blocks:
    the body's one store covers the buffer, and each load through the whole-buffer rectangle reads the buffer. -/
theorem outA_eq (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : k0_cond1 i = 1#1) (hc2 : ¬k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  :
    outA c i arg1 harg1 arg2 harg2 arg3 harg3 arg4 harg4 arg5 harg5 arg6 harg6 arg7 harg7 arg8 harg8 arg9 harg9 hc1 hc2 x1 x2 x3 x4 x5 x6 x7 x8 = k0_pay1 x5 x1 x6 x2 x7 x3 x8 x4 := by
  unfold outA
  rw [View.read_writes_junk_eq_canon]
  unfold kernelRunA; dsimp only; sl_unfold_words
  rw [View.canon_unit_zero hz]
  simp only [View.readAt_eq_ld, harg1.read_unread, harg2.read_unread, harg3.read_unread, harg4.read_unread,
    harg5.read_unread, harg6.read_unread, harg7.read_unread, harg8.read_unread,
    View.ld_unit_zero (S := S128x4096) hz, View.ld_unit_zero (S := S128x64) hz]

/-- What a later point leaves there is what the buffer held plus that sum. -/
theorem outB_eq (c : Dev nD) (i : grid0.Coords) (arg1 : Memref sig .tc .vmem S128x64 .f32) (harg1 : arg1.IsWhole) (arg2 : Memref sig .tc .vmem S128x64 .f32) (harg2 : arg2.IsWhole) (arg3 : Memref sig .tc .vmem S128x64 .f32) (harg3 : arg3.IsWhole) (arg4 : Memref sig .tc .vmem S128x64 .f32) (harg4 : arg4.IsWhole) (arg5 : Memref sig .tc .vmem S128x4096 .f32) (harg5 : arg5.IsWhole) (arg6 : Memref sig .tc .vmem S128x4096 .f32) (harg6 : arg6.IsWhole) (arg7 : Memref sig .tc .vmem S128x4096 .f32) (harg7 : arg7.IsWhole) (arg8 : Memref sig .tc .vmem S128x4096 .f32) (harg8 : arg8.IsWhole) (arg9 : Memref sig .tc .vmem S4096x64 .f32) (harg9 : arg9.IsWhole)
    (hc1 : ¬k0_cond1 i = 1#1) (hc2 : k0_cond2 i = 1#1) (x1 : Vec F S128x64 .f32) (x2 : Vec F S128x64 .f32) (x3 : Vec F S128x64 .f32) (x4 : Vec F S128x64 .f32) (x5 : Vec F S128x4096 .f32) (x6 : Vec F S128x4096 .f32) (x7 : Vec F S128x4096 .f32) (x8 : Vec F S128x4096 .f32)  (xo : Vec F S4096x64 .f32) :
    outB c i arg1 harg1 arg2 harg2 arg3 harg3 arg4 harg4 arg5 harg5 arg6 harg6 arg7 harg7 arg8 harg8 arg9 harg9 hc1 hc2 x1 x2 x3 x4 x5 x6 x7 x8 xo = k0_pay2 x5 x1 x6 x2 x7 x3 x8 x4 xo := by
  unfold outB
  rw [View.read_writes_junk_eq_canon]
  unfold kernelRunB; dsimp only; sl_unfold_words
  rw [View.canon_unit_zero hz]
  simp only [View.readAt_eq_ld, harg1.read_unread, harg2.read_unread, harg3.read_unread, harg4.read_unread,
    harg5.read_unread, harg6.read_unread, harg7.read_unread, harg8.read_unread, harg9.read_unread,
    View.ld_unit_zero (S := S128x4096) hz, View.ld_unit_zero (S := S128x64) hz, View.ld_unit_zero (S := S4096x64) hz]

end Cert.KernelIdeal.Fr

end
-- ==== Proof.BlockProduct.lean ====
/-
  One block product of the kernel read at an index. The matrix unit contracts axis 0 of the weight block
  [128, 4096] with axis 0 of the activation block [128, 64] into a zero accumulator, so entry (p, q) of the
  [4096, 64] product is the sum over the block's 128 rows k of weight (k, p) times activation (k, q).
  The sum of the four products, and that sum added to what the buffer held, are read entry by entry from it.
-/
import proofs.«175850_g82377472737543_cont_9to1c4b_323_5_alg».proof.Proof.Gen.KernelIdeal.Skeleton
import Idealize.ShloMosaic.Lib.ValueIdx
import Idealize.ShloMosaic.Lib.Pipeline.Value
import Idealize.ShloMosaic.PureOps.Ideal.Laws

noncomputable section

namespace Cert.KernelIdeal.Val

open Cert.KernelIdeal Cert.KernelIdeal.Gen Idealize.ShloMosaic Idealize.ShloMosaic.ValueIdx

/-- The weight block is read at (contracted row, output row): its axis 0 is the contracted one, -/
theorem lhs_row (j : S4096x64.Idx) (k : dot_S128x4096_S128x64_S4096x64_0_0_1_1_n_n.contr.Idx) :
    (dot_S128x4096_S128x64_S4096x64_0_0_1_1_n_n.lhsIdx j k 0).val = (k ⟨0, by decide⟩).val :=
  dot_S128x4096_S128x64_S4096x64_0_0_1_1_n_n.lhsIdx_val_of_single rfl j k
/-- its axis 1 the output's axis 0. -/
theorem lhs_col (j : S4096x64.Idx) (k : dot_S128x4096_S128x64_S4096x64_0_0_1_1_n_n.contr.Idx) :
    (dot_S128x4096_S128x64_S4096x64_0_0_1_1_n_n.lhsIdx j k 1).val = (j 0).val := by
  unfold DotDims.lhsIdx
  rw [dif_neg (show ¬(1 : Fin S128x4096.rank) ∈ dot_S128x4096_S128x64_S4096x64_0_0_1_1_n_n.lhsBatch by decide), dif_pos (show (1 : Fin S128x4096.rank) ∈ dot_S128x4096_S128x64_S4096x64_0_0_1_1_n_n.lhsNonContracting by decide)]
  rfl
/-- The activation block is read at (contracted row, output column). -/
theorem rhs_row (j : S4096x64.Idx) (k : dot_S128x4096_S128x64_S4096x64_0_0_1_1_n_n.contr.Idx) :
    (dot_S128x4096_S128x64_S4096x64_0_0_1_1_n_n.rhsIdx j k 0).val = (k ⟨0, by decide⟩).val :=
  dot_S128x4096_S128x64_S4096x64_0_0_1_1_n_n.rhsIdx_val_of_single rfl j k
theorem rhs_col (j : S4096x64.Idx) (k : dot_S128x4096_S128x64_S4096x64_0_0_1_1_n_n.contr.Idx) :
    (dot_S128x4096_S128x64_S4096x64_0_0_1_1_n_n.rhsIdx j k 1).val = (j 1).val := by
  unfold DotDims.rhsIdx
  rw [dif_neg (show ¬(1 : Fin S128x64.rank) ∈ dot_S128x4096_S128x64_S4096x64_0_0_1_1_n_n.rhsBatch by decide), dif_pos (show (1 : Fin S128x64.rank) ∈ dot_S128x4096_S128x64_S4096x64_0_0_1_1_n_n.rhsNonContracting by decide)]
  rfl

/-- Entry (p, q) of a block product into the zero accumulator: the sum over the block's rows. -/
theorem blockProduct_apply (l : FVec Ideal S128x4096 .f32) (r : FVec Ideal S128x64 .f32) (p : Fin 4096) (q : Fin 64) :
    matmul dot_S128x4096_S128x64_S4096x64_0_0_1_1_n_n none l r (constant (F := Ideal) S4096x64 .f32 0x00000000#32) (ix2 p q)
      = ∑ k : Fin 128, l (ix2 k p) * r (ix2 k q) := by
  show FloatOps.matmul dot_S128x4096_S128x64_S4096x64_0_0_1_1_n_n none l r (constant (F := Ideal) S4096x64 .f32 0x00000000#32) (ix2 p q) = _
  rw [Ideal.matmul_constant_zero_apply, ← Equiv.sum_comp (contrEquiv1 dot_S128x4096_S128x64_S4096x64_0_0_1_1_n_n 128 rfl rfl).symm]
  refine Finset.sum_congr rfl fun k _ => ?_
  have hk := contrEquiv1_symm_val dot_S128x4096_S128x64_S4096x64_0_0_1_1_n_n 128 rfl rfl k
  have el : dot_S128x4096_S128x64_S4096x64_0_0_1_1_n_n.lhsIdx (ix2 p q) ((contrEquiv1 dot_S128x4096_S128x64_S4096x64_0_0_1_1_n_n 128 rfl rfl).symm k) = ix2 k p := funext fun a => Fin.ext (by
    match a with
    | ⟨0, _⟩ => exact (lhs_row _ _).trans hk
    | ⟨1, _⟩ => exact lhs_col _ _)
  have er : dot_S128x4096_S128x64_S4096x64_0_0_1_1_n_n.rhsIdx (ix2 p q) ((contrEquiv1 dot_S128x4096_S128x64_S4096x64_0_0_1_1_n_n 128 rfl rfl).symm k) = ix2 k q := funext fun a => Fin.ext (by
    match a with
    | ⟨0, _⟩ => exact (rhs_row _ _).trans hk
    | ⟨1, _⟩ => exact rhs_col _ _)
  rw [el, er]

/-- One stream's contribution to entry (p, q): the rows of its block. -/
def streamSum (l : FVec Ideal S128x4096 .f32) (r : FVec Ideal S128x64 .f32) (p : Fin 4096) (q : Fin 64) : EReal :=
  ∑ k : Fin 128, l (ix2 k p) * r (ix2 k q)

/-- Entry (p, q) of what the first grid point stores: the four streams' contributions, added left to right. -/
theorem pay1_apply (v0 : FVec Ideal S128x4096 .f32) (v1 : FVec Ideal S128x64 .f32) (v3 : FVec Ideal S128x4096 .f32) (v4 : FVec Ideal S128x64 .f32)
    (v7 : FVec Ideal S128x4096 .f32) (v8 : FVec Ideal S128x64 .f32) (v11 : FVec Ideal S128x4096 .f32) (v12 : FVec Ideal S128x64 .f32)
    (p : Fin 4096) (q : Fin 64) :
    k0_pay1 (F := Ideal) v0 v1 v3 v4 v7 v8 v11 v12 (ix2 p q)
      = streamSum v0 v1 p q + streamSum v3 v4 p q + streamSum v7 v8 p q + streamSum v11 v12 p q := by
  unfold k0_pay1 streamSum
  simp only [addf_apply, blockProduct_apply]

/-- Entry (p, q) of what a later grid point stores: what the buffer held there plus the four contributions. -/
theorem pay2_apply (v0 : FVec Ideal S128x4096 .f32) (v1 : FVec Ideal S128x64 .f32) (v3 : FVec Ideal S128x4096 .f32) (v4 : FVec Ideal S128x64 .f32)
    (v7 : FVec Ideal S128x4096 .f32) (v8 : FVec Ideal S128x64 .f32) (v11 : FVec Ideal S128x4096 .f32) (v12 : FVec Ideal S128x64 .f32)
    (acc : FVec Ideal S4096x64 .f32) (p : Fin 4096) (q : Fin 64) :
    k0_pay2 (F := Ideal) v0 v1 v3 v4 v7 v8 v11 v12 acc (ix2 p q)
      = acc (ix2 p q) + k0_pay1 (F := Ideal) v0 v1 v3 v4 v7 v8 v11 v12 (ix2 p q) := by
  unfold k0_pay2
  rw [addf_apply, shapeCast_self]

end Cert.KernelIdeal.Val

end
-- ==== Proof.LibSumBlocks.lean ====
/-
  A finite sum taken block by block.

  A sum of `m * n` terms in a commutative additive monoid is the sum, over `m` consecutive blocks, of
  each block's `n` terms: term `b` of block `a` is term `b + n * a` of the whole. Only commutativity and
  associativity of the addition are used, so the law holds on the extended reals with no finiteness
  assumption: a contraction of length 4096 accumulated as 16 partial contractions of length 256 is the
  one contraction.
-/
import Mathlib.Algebra.BigOperators.Fin
import Mathlib.Logic.Equiv.Fin.Basic

namespace Cert.SumBlocks

open Finset

/-- The whole sum is the sum over blocks of the blocks' sums; `finProdFinEquiv (a, b)` is position
    `b` of block `a`. -/
theorem sum_blocks {M : Type*} [AddCommMonoid M] (m n : ℕ) (f : Fin (m * n) → M) :
    ∑ k : Fin (m * n), f k = ∑ a : Fin m, ∑ b : Fin n, f (finProdFinEquiv (a, b)) :=
  (Equiv.sum_comp finProdFinEquiv f).symm.trans (Fintype.sum_prod_type _)

/-- Position `b` of block `a` is term `b + n * a`. -/
theorem block_pos (m n : ℕ) (a : Fin m) (b : Fin n) :
    (finProdFinEquiv (a, b) : Fin (m * n)).val = b.val + n * a.val := rfl

end Cert.SumBlocks
-- ==== Proof.RowBlocks.lean ====
/-
  The contraction of length 4096 regrouped as the kernel computes it.

  The kernel visits the 32 row blocks of 128 rows in the order "grid point s = 0..7, then stream j = 0..3":
  block 8 j + s is stream j's block at point s. So a sum over the 4096 rows is the sum over the points, the
  streams and the rows inside a block, row r of block 8 j + s being row r + 128 (s + 8 j). Only commutativity
  and associativity of the addition are used, so the law holds on the extended reals without any finiteness.
-/
import proofs.«175850_g82377472737543_cont_9to1c4b_323_5_alg».proof.Proof.LibSumBlocks
import Mathlib.Algebra.BigOperators.Group.Finset.Basic

namespace Cert.RowBlocks

open Finset

/-- A sum over 4096 rows is the sum over 32 blocks of 128 rows, row `r` of block `a` being row `r + 128 a`. -/
theorem sum_rows_blocks {M : Type*} [AddCommMonoid M] (f : Fin 4096 → M) :
    ∑ k : Fin 4096, f k = ∑ a : Fin 32, ∑ r : Fin 128, f ⟨r.val + 128 * a.val, by omega⟩ :=
  (Cert.SumBlocks.sum_blocks 32 128 f).trans
    (Finset.sum_congr rfl fun a _ => Finset.sum_congr rfl fun r _ => congrArg f (Fin.ext (Cert.SumBlocks.block_pos 32 128 a r)))

/-- A sum over the 32 blocks is the sum over the 4 streams of their 8 blocks, block `s` of stream `j` being block `s + 8 j`. -/
theorem sum_blocks_streams {M : Type*} [AddCommMonoid M] (g : Fin 32 → M) :
    ∑ a : Fin 32, g a = ∑ j : Fin 4, ∑ s : Fin 8, g ⟨s.val + 8 * j.val, by omega⟩ :=
  (Cert.SumBlocks.sum_blocks 4 8 g).trans
    (Finset.sum_congr rfl fun j _ => Finset.sum_congr rfl fun s _ => congrArg g (Fin.ext (Cert.SumBlocks.block_pos 4 8 j s)))

/-- The whole contraction in the kernel's order: grid points outermost, then the four streams, then the rows of a block. -/
theorem sum_rows_points {M : Type*} [AddCommMonoid M] (f : Fin 4096 → M) :
    ∑ k : Fin 4096, f k = ∑ s : Fin 8, ∑ j : Fin 4, ∑ r : Fin 128, f ⟨r.val + 128 * (s.val + 8 * j.val), by omega⟩ := by
  rw [sum_rows_blocks f, sum_blocks_streams (fun a => ∑ r : Fin 128, f ⟨r.val + 128 * a.val, by omega⟩), Finset.sum_comm]

end Cert.RowBlocks
-- ==== Proof.Spec.lean ====
/-
  The function both programs compute: the product of the transposed weight matrix with the activations.
  Entry (p, q) of the [4096, 64] result is the sum over the 4096 rows k of weight (k, p) times activation (k, q),
  on the extended reals.
-/
import Idealize.ShloMosaic.PureOps.Ideal
import Idealize.ShloMosaic.Lib.ValueIdx

noncomputable section

namespace Cert.Spec

open Idealize.ShloMosaic Idealize.ShloMosaic.ValueIdx

/-- Entry (p, q) of the transposed-weights product. -/
def wtx (x : (⟨2, ![4096, 64]⟩ : Shape).Idx → EReal) (w : (⟨2, ![4096, 4096]⟩ : Shape).Idx → EReal) (p : Fin 4096) (q : Fin 64) : EReal :=
  ∑ k : Fin 4096, w (ix2 k p) * x (ix2 k q)

/-- The whole result array. -/
def wtxArr (x : (⟨2, ![4096, 64]⟩ : Shape).Idx → EReal) (w : (⟨2, ![4096, 4096]⟩ : Shape).Idx → EReal) :
    (⟨2, ![4096, 64]⟩ : Shape).Idx → EReal :=
  fun i => wtx x w (i 0) (i 1)

end Cert.Spec

end
-- ==== Proof.KI.Value.lean ====
/-
  What the blocked matmul kernel leaves in the result array, on the extended reals.

  After point n the output's staging buffer holds, at entry (p, q), the sum over the points 0..n of that point's
  four stream contributions (the first point stores, every later point adds). Stream j's block at point s is
  rows 128 (s + 8 j) .. 128 (s + 8 j) + 127 of its array, so after the last point the buffer holds the whole
  contraction over the 4096 rows, regrouped; the one write-back then copies it over the whole result array.
-/
import proofs.«175850_g82377472737543_cont_9to1c4b_323_5_alg».proof.Proof.KI.Run
import proofs.«175850_g82377472737543_cont_9to1c4b_323_5_alg».proof.Proof.KI.Pieces
import proofs.«175850_g82377472737543_cont_9to1c4b_323_5_alg».proof.Proof.BlockProduct
import proofs.«175850_g82377472737543_cont_9to1c4b_323_5_alg».proof.Proof.RowBlocks
import proofs.«175850_g82377472737543_cont_9to1c4b_323_5_alg».proof.Proof.Spec

set_option maxRecDepth 16384

noncomputable section

namespace Cert.KernelIdeal.Fr

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

local notation "𝕄" => MT nD τ sig Unit (Elt Ideal) ℕ (UR sig nD τ) ℕ

variable (m : (ℓ : Loc nD τ sig) → Buf (Elt Ideal) ℓ) (ρ : Dev nD → PrngReg)

open Idealize.ShloMosaic.ValueIdx Cert.KernelIdeal.Val

/-- The printed index maps, decided over the eight grid points: input window j of either array is at row block
    t + 8 j, the output window at the one block of its array. -/
theorem idx_facts : ∀ t : Fin cfg0.N, win0_0.index t (0 : Fin 2) = t.val + 0
    ∧ win0_0.index t (1 : Fin 2) = 0
    ∧ win0_1.index t (0 : Fin 2) = t.val + 8
    ∧ win0_1.index t (1 : Fin 2) = 0
    ∧ win0_2.index t (0 : Fin 2) = t.val + 16
    ∧ win0_2.index t (1 : Fin 2) = 0
    ∧ win0_3.index t (0 : Fin 2) = t.val + 24
    ∧ win0_3.index t (1 : Fin 2) = 0
    ∧ win0_4.index t (0 : Fin 2) = t.val + 0
    ∧ win0_4.index t (1 : Fin 2) = 0
    ∧ win0_5.index t (0 : Fin 2) = t.val + 8
    ∧ win0_5.index t (1 : Fin 2) = 0
    ∧ win0_6.index t (0 : Fin 2) = t.val + 16
    ∧ win0_6.index t (1 : Fin 2) = 0
    ∧ win0_7.index t (0 : Fin 2) = t.val + 24
    ∧ win0_7.index t (1 : Fin 2) = 0
    ∧ win0_8.index t (0 : Fin 2) = 0
    ∧ win0_8.index t (1 : Fin 2) = 0 :=
  (by decide +kernel : ∀ t : Fin grid0.N, _)

/-- Row `k` of activation stream 0's block at point `t` is row `k + 128 (t + 8·0)` of the array. -/
theorem blk0_apply (c : Dev nD) (t : Fin cfg0.N) (k : Fin 128) (q : Fin 64) :
    iblk m c 0 t (ix2 k q) = m ((c : Thread nD τ).loc main_arg0) (ix2 ⟨k.val + 128 * (t.val + 8 * 0), by have h8 : t.val < 8 := lt_of_lt_of_eq t.isLt N_0; omega⟩ q) := by
  show V m c main_arg0 (((cfg0.win 0).blk t).view.emb (ix2 k q)) = V m c main_arg0 _
  refine congrArg (V m c main_arg0) (funext fun a => Fin.ext ?_)
  obtain ⟨e0, e1, e2, e3, e4, e5, e6, e7, e8, e9, e10, e11, e12, e13, e14, e15, e16, e17⟩ := idx_facts t
  match a with
  | ⟨0, _⟩ => show win0_0.index t (0 : Fin 2) * 128 + 1 * k.val = k.val + 128 * (t.val + 8 * 0); omega
  | ⟨1, _⟩ => show win0_0.index t (1 : Fin 2) * 64 + 1 * q.val = q.val; omega

/-- Row `k` of activation stream 1's block at point `t` is row `k + 128 (t + 8·1)` of the array. -/
theorem blk1_apply (c : Dev nD) (t : Fin cfg0.N) (k : Fin 128) (q : Fin 64) :
    iblk m c 1 t (ix2 k q) = m ((c : Thread nD τ).loc main_arg0) (ix2 ⟨k.val + 128 * (t.val + 8 * 1), by have h8 : t.val < 8 := lt_of_lt_of_eq t.isLt N_0; omega⟩ q) := by
  show V m c main_arg0 (((cfg0.win 1).blk t).view.emb (ix2 k q)) = V m c main_arg0 _
  refine congrArg (V m c main_arg0) (funext fun a => Fin.ext ?_)
  obtain ⟨e0, e1, e2, e3, e4, e5, e6, e7, e8, e9, e10, e11, e12, e13, e14, e15, e16, e17⟩ := idx_facts t
  match a with
  | ⟨0, _⟩ => show win0_1.index t (0 : Fin 2) * 128 + 1 * k.val = k.val + 128 * (t.val + 8 * 1); omega
  | ⟨1, _⟩ => show win0_1.index t (1 : Fin 2) * 64 + 1 * q.val = q.val; omega

/-- Row `k` of activation stream 2's block at point `t` is row `k + 128 (t + 8·2)` of the array. -/
theorem blk2_apply (c : Dev nD) (t : Fin cfg0.N) (k : Fin 128) (q : Fin 64) :
    iblk m c 2 t (ix2 k q) = m ((c : Thread nD τ).loc main_arg0) (ix2 ⟨k.val + 128 * (t.val + 8 * 2), by have h8 : t.val < 8 := lt_of_lt_of_eq t.isLt N_0; omega⟩ q) := by
  show V m c main_arg0 (((cfg0.win 2).blk t).view.emb (ix2 k q)) = V m c main_arg0 _
  refine congrArg (V m c main_arg0) (funext fun a => Fin.ext ?_)
  obtain ⟨e0, e1, e2, e3, e4, e5, e6, e7, e8, e9, e10, e11, e12, e13, e14, e15, e16, e17⟩ := idx_facts t
  match a with
  | ⟨0, _⟩ => show win0_2.index t (0 : Fin 2) * 128 + 1 * k.val = k.val + 128 * (t.val + 8 * 2); omega
  | ⟨1, _⟩ => show win0_2.index t (1 : Fin 2) * 64 + 1 * q.val = q.val; omega

/-- Row `k` of activation stream 3's block at point `t` is row `k + 128 (t + 8·3)` of the array. -/
theorem blk3_apply (c : Dev nD) (t : Fin cfg0.N) (k : Fin 128) (q : Fin 64) :
    iblk m c 3 t (ix2 k q) = m ((c : Thread nD τ).loc main_arg0) (ix2 ⟨k.val + 128 * (t.val + 8 * 3), by have h8 : t.val < 8 := lt_of_lt_of_eq t.isLt N_0; omega⟩ q) := by
  show V m c main_arg0 (((cfg0.win 3).blk t).view.emb (ix2 k q)) = V m c main_arg0 _
  refine congrArg (V m c main_arg0) (funext fun a => Fin.ext ?_)
  obtain ⟨e0, e1, e2, e3, e4, e5, e6, e7, e8, e9, e10, e11, e12, e13, e14, e15, e16, e17⟩ := idx_facts t
  match a with
  | ⟨0, _⟩ => show win0_3.index t (0 : Fin 2) * 128 + 1 * k.val = k.val + 128 * (t.val + 8 * 3); omega
  | ⟨1, _⟩ => show win0_3.index t (1 : Fin 2) * 64 + 1 * q.val = q.val; omega

/-- Row `k` of weight stream 0's block at point `t` is row `k + 128 (t + 8·0)` of the array. -/
theorem blk4_apply (c : Dev nD) (t : Fin cfg0.N) (k : Fin 128) (p : Fin 4096) :
    iblk m c 4 t (ix2 k p) = m ((c : Thread nD τ).loc main_arg1) (ix2 ⟨k.val + 128 * (t.val + 8 * 0), by have h8 : t.val < 8 := lt_of_lt_of_eq t.isLt N_0; omega⟩ p) := by
  show V m c main_arg1 (((cfg0.win 4).blk t).view.emb (ix2 k p)) = V m c main_arg1 _
  refine congrArg (V m c main_arg1) (funext fun a => Fin.ext ?_)
  obtain ⟨e0, e1, e2, e3, e4, e5, e6, e7, e8, e9, e10, e11, e12, e13, e14, e15, e16, e17⟩ := idx_facts t
  match a with
  | ⟨0, _⟩ => show win0_4.index t (0 : Fin 2) * 128 + 1 * k.val = k.val + 128 * (t.val + 8 * 0); omega
  | ⟨1, _⟩ => show win0_4.index t (1 : Fin 2) * 4096 + 1 * p.val = p.val; omega

/-- Row `k` of weight stream 1's block at point `t` is row `k + 128 (t + 8·1)` of the array. -/
theorem blk5_apply (c : Dev nD) (t : Fin cfg0.N) (k : Fin 128) (p : Fin 4096) :
    iblk m c 5 t (ix2 k p) = m ((c : Thread nD τ).loc main_arg1) (ix2 ⟨k.val + 128 * (t.val + 8 * 1), by have h8 : t.val < 8 := lt_of_lt_of_eq t.isLt N_0; omega⟩ p) := by
  show V m c main_arg1 (((cfg0.win 5).blk t).view.emb (ix2 k p)) = V m c main_arg1 _
  refine congrArg (V m c main_arg1) (funext fun a => Fin.ext ?_)
  obtain ⟨e0, e1, e2, e3, e4, e5, e6, e7, e8, e9, e10, e11, e12, e13, e14, e15, e16, e17⟩ := idx_facts t
  match a with
  | ⟨0, _⟩ => show win0_5.index t (0 : Fin 2) * 128 + 1 * k.val = k.val + 128 * (t.val + 8 * 1); omega
  | ⟨1, _⟩ => show win0_5.index t (1 : Fin 2) * 4096 + 1 * p.val = p.val; omega

/-- Row `k` of weight stream 2's block at point `t` is row `k + 128 (t + 8·2)` of the array. -/
theorem blk6_apply (c : Dev nD) (t : Fin cfg0.N) (k : Fin 128) (p : Fin 4096) :
    iblk m c 6 t (ix2 k p) = m ((c : Thread nD τ).loc main_arg1) (ix2 ⟨k.val + 128 * (t.val + 8 * 2), by have h8 : t.val < 8 := lt_of_lt_of_eq t.isLt N_0; omega⟩ p) := by
  show V m c main_arg1 (((cfg0.win 6).blk t).view.emb (ix2 k p)) = V m c main_arg1 _
  refine congrArg (V m c main_arg1) (funext fun a => Fin.ext ?_)
  obtain ⟨e0, e1, e2, e3, e4, e5, e6, e7, e8, e9, e10, e11, e12, e13, e14, e15, e16, e17⟩ := idx_facts t
  match a with
  | ⟨0, _⟩ => show win0_6.index t (0 : Fin 2) * 128 + 1 * k.val = k.val + 128 * (t.val + 8 * 2); omega
  | ⟨1, _⟩ => show win0_6.index t (1 : Fin 2) * 4096 + 1 * p.val = p.val; omega

/-- Row `k` of weight stream 3's block at point `t` is row `k + 128 (t + 8·3)` of the array. -/
theorem blk7_apply (c : Dev nD) (t : Fin cfg0.N) (k : Fin 128) (p : Fin 4096) :
    iblk m c 7 t (ix2 k p) = m ((c : Thread nD τ).loc main_arg1) (ix2 ⟨k.val + 128 * (t.val + 8 * 3), by have h8 : t.val < 8 := lt_of_lt_of_eq t.isLt N_0; omega⟩ p) := by
  show V m c main_arg1 (((cfg0.win 7).blk t).view.emb (ix2 k p)) = V m c main_arg1 _
  refine congrArg (V m c main_arg1) (funext fun a => Fin.ext ?_)
  obtain ⟨e0, e1, e2, e3, e4, e5, e6, e7, e8, e9, e10, e11, e12, e13, e14, e15, e16, e17⟩ := idx_facts t
  match a with
  | ⟨0, _⟩ => show win0_7.index t (0 : Fin 2) * 128 + 1 * k.val = k.val + 128 * (t.val + 8 * 3); omega
  | ⟨1, _⟩ => show win0_7.index t (1 : Fin 2) * 4096 + 1 * p.val = p.val; omega

/-- Point `s`'s contribution to entry (p, q): its four streams' block contractions (zero past the grid, where it is never read). -/
def pointSum (c : Dev nD) (s : ℕ) (p : Fin 4096) (q : Fin 64) : EReal :=
  if h : s < cfg0.N then
    streamSum (iblk m c 4 ⟨s, h⟩) (iblk m c 0 ⟨s, h⟩) p q + streamSum (iblk m c 5 ⟨s, h⟩) (iblk m c 1 ⟨s, h⟩) p q
      + streamSum (iblk m c 6 ⟨s, h⟩) (iblk m c 2 ⟨s, h⟩) p q + streamSum (iblk m c 7 ⟨s, h⟩) (iblk m c 3 ⟨s, h⟩) p q
  else 0

/-- THE ACCUMULATOR: after point `n` the output's buffer holds the sum of the contributions of the points up to `n`. -/
theorem outsAt_sum (c : Dev nD) : ∀ (n : ℕ) (hn : n < cfg0.N) (p : Fin 4096) (q : Fin 64),
    outsAt m c n hn (ix2 p q) = ∑ s ∈ Finset.range (n + 1), pointSum m c s p q
  | 0, hn, p, q => by
    rw [Finset.sum_range_one]
    show outA c (grid0.coords ⟨0, hn⟩) (ms0 ⟨0, hn⟩) (hs0 ⟨0, hn⟩) (ms1 ⟨0, hn⟩) (hs1 ⟨0, hn⟩) (ms2 ⟨0, hn⟩) (hs2 ⟨0, hn⟩) (ms3 ⟨0, hn⟩) (hs3 ⟨0, hn⟩) (ms4 ⟨0, hn⟩) (hs4 ⟨0, hn⟩) (ms5 ⟨0, hn⟩) (hs5 ⟨0, hn⟩) (ms6 ⟨0, hn⟩) (hs6 ⟨0, hn⟩) (ms7 ⟨0, hn⟩) (hs7 ⟨0, hn⟩) (ms8 ⟨0, hn⟩) (hs8 ⟨0, hn⟩)
      ((hcond1 ⟨0, hn⟩).mpr rfl) (fun h => (hcond2 ⟨0, hn⟩).mp h rfl) (iblk m c 0 ⟨0, hn⟩) (iblk m c 1 ⟨0, hn⟩) (iblk m c 2 ⟨0, hn⟩) (iblk m c 3 ⟨0, hn⟩) (iblk m c 4 ⟨0, hn⟩) (iblk m c 5 ⟨0, hn⟩) (iblk m c 6 ⟨0, hn⟩) (iblk m c 7 ⟨0, hn⟩) (ix2 p q) = _
    rw [outA_eq, pay1_apply]
    unfold pointSum; rw [dif_pos hn]
  | n + 1, hn, p, q => by
    rw [Finset.sum_range_succ, ← outsAt_sum c n (Nat.lt_of_succ_lt hn) p q]
    show outB c (grid0.coords ⟨n + 1, hn⟩) (ms0 ⟨n + 1, hn⟩) (hs0 ⟨n + 1, hn⟩) (ms1 ⟨n + 1, hn⟩) (hs1 ⟨n + 1, hn⟩) (ms2 ⟨n + 1, hn⟩) (hs2 ⟨n + 1, hn⟩) (ms3 ⟨n + 1, hn⟩) (hs3 ⟨n + 1, hn⟩) (ms4 ⟨n + 1, hn⟩) (hs4 ⟨n + 1, hn⟩) (ms5 ⟨n + 1, hn⟩) (hs5 ⟨n + 1, hn⟩) (ms6 ⟨n + 1, hn⟩) (hs6 ⟨n + 1, hn⟩) (ms7 ⟨n + 1, hn⟩) (hs7 ⟨n + 1, hn⟩) (ms8 ⟨n + 1, hn⟩) (hs8 ⟨n + 1, hn⟩)
      (fun h => Nat.succ_ne_zero n ((hcond1 ⟨n + 1, hn⟩).mp h)) ((hcond2 ⟨n + 1, hn⟩).mpr (Nat.succ_ne_zero n)) (iblk m c 0 ⟨n + 1, hn⟩) (iblk m c 1 ⟨n + 1, hn⟩) (iblk m c 2 ⟨n + 1, hn⟩) (iblk m c 3 ⟨n + 1, hn⟩) (iblk m c 4 ⟨n + 1, hn⟩) (iblk m c 5 ⟨n + 1, hn⟩) (iblk m c 6 ⟨n + 1, hn⟩) (iblk m c 7 ⟨n + 1, hn⟩)
      (outsAt m c n (Nat.lt_of_succ_lt hn)) (ix2 p q) = _
    rw [outB_eq, pay2_apply, pay1_apply]
    unfold pointSum; rw [dif_pos hn]

/-- The eight points' contributions are the whole contraction, regrouped by point, stream and row. -/
theorem points_sum (c : Dev nD) (p : Fin 4096) (q : Fin 64) :
    ∑ s ∈ Finset.range 8, pointSum m c s p q
      = Cert.Spec.wtx (m ((c : Thread nD τ).loc main_arg0)) (m ((c : Thread nD τ).loc main_arg1)) p q := by
  unfold Cert.Spec.wtx
  rw [Cert.RowBlocks.sum_rows_points, Finset.sum_range]
  refine Finset.sum_congr rfl fun s _ => ?_
  rw [Fin.sum_univ_four]
  unfold pointSum
  rw [dif_pos (show s.val < cfg0.N from lt_of_lt_of_eq s.isLt N_0.symm)]
  unfold streamSum
  simp only [blk0_apply, blk1_apply, blk2_apply, blk3_apply, blk4_apply, blk5_apply, blk6_apply, blk7_apply]
  rfl

/-- WHAT THE LAST POINT WRITES BACK is the one block — the whole — of the transposed-weights product. -/
theorem flushed_eq (c : Dev nD) (t : Fin cfg0.N) (ht : (cfg0.win 8).flush t = true) :
    (dats m 0 c).flushed 8 t = ((cfg0.win 8).blk t).view.read (Elt Ideal)
      (Cert.Spec.wtxArr (m ((c : Thread nD τ).loc main_arg0)) (m ((c : Thread nD τ).loc main_arg1))) := by
  show (cfg0.win 8).cut (grid0.coords t) ((dats m 0 c).after 8 t) = _
  rw [after8]
  funext j
  obtain ⟨p, q, rfl⟩ : ∃ (p : Fin 4096) (q : Fin 64), j = ix2 p q := ⟨j 0, j 1, eq_ix2 j⟩
  show outsAt m c t.val t.isLt (ix2 p q)
    = Cert.Spec.wtxArr (m ((c : Thread nD τ).loc main_arg0)) (m ((c : Thread nD τ).loc main_arg1)) (((cfg0.win 8).blk t).view.emb (ix2 p q))
  have hemb : ((cfg0.win 8).blk t).view.emb (ix2 p q) = ix2 p q := by
    funext a; apply Fin.ext
    obtain ⟨e0, e1, e2, e3, e4, e5, e6, e7, e8, e9, e10, e11, e12, e13, e14, e15, e16, e17⟩ := idx_facts t
    match a with
    | ⟨0, _⟩ => show win0_8.index t (0 : Fin 2) * 4096 + 1 * p.val = p.val; omega
    | ⟨1, _⟩ => show win0_8.index t (1 : Fin 2) * 64 + 1 * q.val = q.val; omega
  have ht7 : t.val = 7 := by
    have h1 := (flush0_8 t).mp ht; have h2 : t.val < 8 := lt_of_lt_of_eq t.isLt N_0; omega
  rw [hemb, outsAt_sum]
  have e : ∑ s ∈ Finset.range (t.val + 1), pointSum m c s p q = ∑ s ∈ Finset.range 8, pointSum m c s p q := by rw [ht7]
  rw [e, points_sum]
  rfl

/-- An index of the result array is in the last point's block (the block is the whole array). -/
theorem covered (c : Dev nD) (i : S4096x64.Idx) :
    ∃ t : Fin cfg0.N, (cfg0.win 8).flush t = true ∧ i ∈ ((cfg0.win 8).blk t).view.set := by
  refine ⟨t0_7, (flush0_8 t0_7).mpr rfl, ?_⟩
  show i ∈ ((View.whole main_v0).slice (win0_8.rect t0_7)).set
  rw [View.set_slice_whole, Rect.mem_set_unit]
  obtain ⟨e0, e1, e2, e3, e4, e5, e6, e7, e8, e9, e10, e11, e12, e13, e14, e15, e16, e17⟩ := idx_facts t0_7
  intro a
  match a with
  | ⟨0, _⟩ => show win0_8.index t0_7 (0 : Fin 2) * 4096 ≤ (i 0).val ∧ (i 0).val < win0_8.index t0_7 (0 : Fin 2) * 4096 + 4096; have hi : (i 0).val < 4096 := (i 0).isLt; omega
  | ⟨1, _⟩ => show win0_8.index t0_7 (1 : Fin 2) * 64 ≤ (i 1).val ∧ (i 1).val < win0_8.index t0_7 (1 : Fin 2) * 64 + 64; have hi : (i 1).val < 64 := (i 1).isLt; omega

/-- THE RESULT ARRAY after the run: the transposed-weights product of the argument arrays. -/
theorem final (c : Dev nD) : (dats m 0 c).arrAt 8 cfg0.N
    = Cert.Spec.wtxArr (m ((c : Thread nD τ).loc main_arg0)) (m ((c : Thread nD τ).loc main_arg1)) :=
  (dats m 0 c).arrAt_eq_of_cover 8 _ (fun t ht => flushed_eq m c t ht) (covered c)

/-- The run, read: the result array at the product, the argument arrays unchanged. -/
theorem run : θ_run defs (onTc (τ := τ) (main (F := Ideal))) ⟨m, fun _ => 0, ρ⟩ fun r => ∀ c : Dev nD,
      r.2.mem ((c.tc : Thread nD τ).loc main_v0) = Cert.Spec.wtxArr (m ((c : Thread nD τ).loc main_arg0)) (m ((c : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1) :=
  (θ_run defs _ _).mono (fun _ h c =>
    ⟨(h c 8).trans (final m c),
     (h c 0).trans (((dats m 0 c).arrAt_in 0 rfl _).trans (A_eq m c 0)),
     (h c 4).trans (((dats m 0 c).arrAt_in 4 rfl _).trans (A_eq m c 4))⟩) (run_main m ρ)

end Cert.KernelIdeal.Fr

end
-- ==== Proof.RefValue.lean ====
/-
  The reference computes the transposed-weights product: its transpose reads the weights at swapped coordinates and
  its dot_general contracts the transposed matrix's columns with the activations' rows, so entry (p, q) is the sum
  over k of weight (k, p) times activation (k, q).
-/
import proofs.«175850_g82377472737543_cont_9to1c4b_323_5_alg».proof.Proof.Gen.ReferenceIdeal.Read
import proofs.«175850_g82377472737543_cont_9to1c4b_323_5_alg».proof.Proof.Spec

noncomputable section

namespace Cert.ReferenceIdeal.RefValue

open Cert.ReferenceIdeal Idealize.ShloMosaic Idealize.ShloMosaic.ValueIdx

theorem reference_eq (x0 : (⟨S4096x64, .f32⟩ : BufTy).Contents (Elt Ideal)) (x1 : (⟨S4096x4096, .f32⟩ : BufTy).Contents (Elt Ideal)) :
    Cert.ReferenceIdeal.Read.val_main_v1 (F := Ideal) x0 x1 = Cert.Spec.wtxArr x0 x1 := by
  funext i
  rw [Cert.ReferenceIdeal.Read.val_main_v1_apply]
  unfold Cert.Spec.wtxArr Cert.Spec.wtx
  refine Finset.sum_congr rfl fun k _ => ?_
  rw [Cert.ReferenceIdeal.Read.val_main_v0_apply]
  have e1 : Cert.ReferenceIdeal.Read.idx_main_v0 (Cert.ReferenceIdeal.Read.lidx_main_v1 i k) = ix2 k (i 0) :=
    funext fun a => Fin.ext (by match a with | ⟨0, _⟩ => rfl | ⟨1, _⟩ => rfl)
  have e2 : Cert.ReferenceIdeal.Read.ridx_main_v1 i k = ix2 k (i 1) :=
    funext fun a => Fin.ext (by match a with | ⟨0, _⟩ => rfl | ⟨1, _⟩ => rfl)
  rw [e1, e2]
  rfl

end Cert.ReferenceIdeal.RefValue

end
-- ==== Proof.lean ====
/-
  The certificate of the blocked matmul kernel against the transposed-weights product.

  The kernel computes W^T x for weights W [4096, 4096] and activations x [4096, 64] on a grid of eight points.
  At each point it reads four row blocks of 128 rows of each array (row block 8 j + s for stream j at point s),
  contracts each weight block with the matching activation block on the matrix unit, and adds the four products;
  the first point stores that sum into the output's buffer, each later point adds it to what the buffer holds,
  and the buffer is written back once, after the last point. The reference transposes W and contracts its 4096
  columns with the rows of x. On the extended reals both are, at entry (p, q), the sum over the 4096 rows k of
  W (k, p) · x (k, q): the kernel's order of summation differs from the reference's only by a regrouping of a finite
  sum, which needs commutativity and associativity of the addition alone, so the inputs' finiteness is never used.

  The three frames: the two kernel programs run through the pipeline's launch with each argument array's share
  dealt in quarters among the four windows that read it; the reference is two host operations. The idealization
  rewrote nothing, so there is nothing to preserve.
-/
import proofs.«175850_g82377472737543_cont_9to1c4b_323_5_alg».proof.Defs
import proofs.«175850_g82377472737543_cont_9to1c4b_323_5_alg».proof.Proof.Gen.Kernel
import proofs.«175850_g82377472737543_cont_9to1c4b_323_5_alg».proof.Proof.Gen.KernelIdeal
import proofs.«175850_g82377472737543_cont_9to1c4b_323_5_alg».proof.Proof.Gen.ReferenceIdeal
import proofs.«175850_g82377472737543_cont_9to1c4b_323_5_alg».proof.Proof.Gen.Pre_finite_inputs
import proofs.«175850_g82377472737543_cont_9to1c4b_323_5_alg».proof.Proof.Gen.ReferenceIdeal.Run
import proofs.«175850_g82377472737543_cont_9to1c4b_323_5_alg».proof.Proof.Gen.ReferenceIdeal.Read
import proofs.«175850_g82377472737543_cont_9to1c4b_323_5_alg».proof.Proof.K.Run
import proofs.«175850_g82377472737543_cont_9to1c4b_323_5_alg».proof.Proof.KI.Value
import proofs.«175850_g82377472737543_cont_9to1c4b_323_5_alg».proof.Proof.RefValue
import Idealize.ShloMosaic.Adequacy
import Idealize.ShloMosaic.Init

noncomputable section

namespace Cert.Proof

open Idealize.ShloMosaic Idealize.SL.Sem

/-- The kernel as printed runs to the end, faults nowhere and leaves its argument arrays as they were. -/
theorem frame_kernel : Cert.frame_Kernel := fun m ρ _ => Cert.Kernel.Fr.frame m ρ

/-- So does its reading on the extended reals. -/
theorem frame_kernelIdeal : Cert.frame_KernelIdeal := fun m ρ _ => Cert.KernelIdeal.Fr.frame m ρ

/-- The reference is two host operations: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- Both programs end with the transposed-weights product of the (agreeing) argument arrays in their result. -/
theorem algebraic : Cert.algebraic_KernelIdeal_ReferenceIdeal := by
  intro m ρ m' ρ' _ hagree
  refine ⟨_, Cert.KernelIdeal.Fr.run m ρ, ?_⟩
  refine (θ_run Cert.ReferenceIdeal.defs _ _).mono (fun _ h c => ⟨?_, (h c).2⟩)
    (Cert.ReferenceIdeal.Value.run (F := Ideal) m' ρ')
  rw [(h c).1, Cert.ReferenceIdeal.Read.val_main_v1_eq, Cert.ReferenceIdeal.RefValue.reference_eq, (hagree c).1, (hagree c).2]

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, preserves, algebraic⟩

end Cert.Proof

end
